-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x3200000 : Shape := ⟨2, ![2, 3200000]⟩
abbrev S3200000 : Shape := ⟨1, ![3200000]⟩
abbrev S300x16 : Shape := ⟨2, ![300, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S300x16 : S_.BroadcastsInDim S300x16 (![] : Fin 0 → Fin S300x16.rank)
  reducesTo_S300x16_S_d0_1 : S300x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S16x10 .f32) (main_arg6 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x10 .f32 := Host.absf main_arg5
  let main_cst_6 : FVec F S_ .f32 := constant S_ .f32 0x7F800000#32
  let main_v20 : FVec F S16x10 .f32 := broadcastInDim S16x10 ![] bcast_S_S16x10 main_cst_6
  let main_v21 : IVec S16x10 1 := cmpf .olt main_v19 main_v20
  let main_c_7 : IVec S_ 1 := constantI S_ 1 1#1
  let main_v22 : IVec S_ 1 := (fun x v => Host.reduce IntOp.andi x v reducesTo_S16x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x300 .f32) (main_arg1 : IVec S2x3200000 32) (main_arg2 : FVec F S3200000 .f32) (main_arg3 : FVec F S300x16 .f32) (main_arg4 : FVec F S16 .f32) (main_arg5 : FVec F S16x10 .f32) (main_arg6 : FVec F S10 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S300x16 .f32 := Host.absf main_arg3
  let main_cst_2 : FVec F S_ .f32 := constant S_ .f32 0x7F800000#32
  let main_v10 : FVec F S300x16 .f32 := broadcastInDim S300x16 ![] bcast_S_S300x16 main_cst_2
  let main_v11 : IVec S300x16 1 := cmpf .olt main_v9 main_v10
  let main_c_3 : IVec S_ 1 := constantI S_ 1 1#1
  let main_v12 : IVec S_ 1 := (fun x v => Host.reduce IntOp.andi x v reducesTo_S300x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x300 : Shape := ⟨2, ![100000, 300]⟩
abbrev S2x3200000 : Shape := ⟨2, ![2, 3200000]⟩
abbrev S3200000 : Shape := ⟨1, ![3200000]⟩
abbrev S300x16 : Shape := ⟨2, ![300, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x300 : Shape := ⟨2, ![10000, 300]⟩
abbrev S10000x16 : Shape := ⟨2, ![10000, 16]⟩
abbrev S3300000x16 : Shape := ⟨2, ![3300000, 16]⟩
abbrev S1x16 : Shape := ⟨2, ![1, 16]⟩
abbrev S100000x10 : Shape := ⟨2, ![100000, 10]⟩
abbrev S10000x10 : Shape := ⟨2, ![10000, 10]⟩
abbrev S3300000x10 : Shape := ⟨2, ![3300000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x300, .f32⟩
  | .hbm, ⟨1, _⟩ => ⟨S2x3200000, .i32⟩
  | .hbm, ⟨2, _⟩ => ⟨S3200000, .f32⟩
  | .hbm, ⟨3, _⟩ => ⟨S300x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x10, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x10, .f32⟩
  | .hbm, ⟨77, _⟩ => ⟨S3300000x1, .f32⟩
  | .hbm, ⟨78, _⟩ => ⟨S3300000x10, .f32⟩
  | .hbm, ⟨79, _⟩ => ⟨S3300000x10, .f32⟩
  | .hbm, ⟨80, _⟩ => ⟨S_, .f32⟩
  | .hbm, ⟨81, _⟩ => ⟨S100000x10, .f32⟩
  | .hbm, ⟨82, _⟩ => ⟨S3300000x1, .i32⟩
  | .hbm, ⟨83, _⟩ => ⟨S100000x10, .f32⟩
  | .hbm, ⟨84, _⟩ => ⟨S1x10, .f32⟩
  | .hbm, ⟨85, _⟩ => ⟨S100000x10, .f32⟩
  | .local _ .vmem, ⟨0, _⟩ => ⟨S10000x300, .f32⟩
  | .local _ .vmem, ⟨1, _⟩ => ⟨S10000x300, .f32⟩
  | .local _ .vmem, ⟨2, _⟩ => ⟨S300x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x10, .f32⟩
  | .local _ .vmem, ⟨9, _⟩ => ⟨S10000x10, .f32⟩
  | .local _ .vmem, ⟨10, _⟩ => ⟨S10000x10, .f32⟩
  | .local _ .vmem, ⟨11, _⟩ => ⟨S10000x10, .f32⟩
  | .local _ .vmem, ⟨12, _⟩ => ⟨S10000x10, .f32⟩
  | .local _ .vmem, ⟨13, _⟩ => ⟨S1x10, .f32⟩
  | .local _ .vmem, ⟨14, _⟩ => ⟨S10000x10, .f32⟩
  | .local _ .vmem, ⟨15, _⟩ => ⟨S10000x10, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x300_S10000x300_0_0 : ∀ a, (![0, 0] : Fin 2 → Nat) a + S10000x300.size a ≤ S10000x300.size a
  h_S10000x300 : 0 < S10000x300.numel
  bitsLt_bf16_f32 : FTy.bits .bf16 < FTy.bits .f32
  inb_S300x16_S300x16_0_0 : ∀ a, (![0, 0] : Fin 2 → Nat) a + S300x16.size a ≤ S300x16.size a
  h_S300x16 : 0 < S300x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x10_S16x10_0_0 : ∀ a, (![0, 0] : Fin 2 → Nat) a + S16x10.size a ≤ S16x10.size a
  h_S16x10 : 0 < S16x10.numel
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S10000x10_S10000x10 : S10000x10.ShapeCasts S10000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x300_S300x16_S10000x16_1_0_0_1_n_n_wf : DotDims.WF S10000x300 S300x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x10_S10000x10_1_0_0_1_n_n_wf : DotDims.WF S10000x16 S16x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x300.size a ≤ S100000x300.size a
  hwx0_0 : ∀ i : grid0.Coords, EltTy.bits .f32 = 32 ∨ (Rect.block (s := S100000x300) S10000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x16.size a ≤ S300x16.size a
  hwx0_1 : ∀ i : grid0.Coords, EltTy.bits .f32 = 32 ∨ (Rect.block (s := S300x16) S300x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x10.size a ≤ S16x10.size a
  hwx1_2 : ∀ i : grid1.Coords, EltTy.bits .f32 = 32 ∨ (Rect.block (s := S16x10) S16x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x10.size a ≤ S100000x10.size a
  hwx1_3 : ∀ i : grid1.Coords, EltTy.bits .f32 = 32 ∨ (Rect.block (s := S100000x10) S10000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x10.size a ≤ S100000x10.size a
  hwx2_2 : ∀ i : grid2.Coords, EltTy.bits .f32 = 32 ∨ (Rect.block (s := S100000x10) S10000x10.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x300_S300x16_S10000x16_1_0_0_1_n_n : DotDims S10000x300 S300x16 S10000x16 where
  lhsContracting := [1]
  rhsContracting := [0]
  lhsNonContracting := [0]
  rhsNonContracting := [1]
  lhsBatch := []
  rhsBatch := []
  wf := dot_S10000x300_S300x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S10000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S300x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x300 : Shape := ⟨2, ![100000, 300]⟩
abbrev S2x3200000 : Shape := ⟨2, ![2, 3200000]⟩
abbrev S3200000 : Shape := ⟨1, ![3200000]⟩
abbrev S300x16 : Shape := ⟨2, ![300, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S2x3200000, .i32⟩
  | .hbm, ⟨2, _⟩ => ⟨S3200000, .f32⟩
  | .hbm, ⟨3, _⟩ => ⟨S300x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x10, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x10, .f32⟩
  | .hbm, ⟨82, _⟩ => ⟨S3300000x1, .f32⟩
  | .hbm, ⟨83, _⟩ => ⟨S3300000x10, .f32⟩
  | .hbm, ⟨84, _⟩ => ⟨S3300000x10, .f32⟩
  | .hbm, ⟨85, _⟩ => ⟨S_, .f32⟩
  | .hbm, ⟨86, _⟩ => ⟨S100000x10, .f32⟩
  | .hbm, ⟨87, _⟩ => ⟨S3300000x1, .i32⟩
  | .hbm, ⟨88, _⟩ => ⟨S100000x10, .f32⟩
  | .hbm, ⟨89, _⟩ => ⟨S1x10, .f32⟩
  | .hbm, ⟨90, _⟩ => ⟨S100000x10, .f32⟩
  | .hbm, ⟨91, _⟩ => ⟨S100000x10, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x10, .f32⟩
  | .hbm, ⟨99, _⟩ => ⟨S100000x10, .f32⟩
  | .hbm, ⟨100, _⟩ => ⟨S100000x10, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x10, .f32⟩
  | .hbm, ⟨106, _⟩ => ⟨S100000x10, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x300_S300x16_S100000x16_1_0_0_1_n_n_wf : DotDims.WF S100000x300 S300x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x300_S300x16_S100000x16_1_0_0_1_n_n : DotDims S100000x300 S300x16 S100000x16 where
  lhsContracting := [1]
  rhsContracting := [0]
  lhsNonContracting := [0]
  rhsNonContracting := [1]
  lhsBatch := []
  rhsBatch := []
  wf := dot_S100000x300_S300x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.RunValue.lean ====
/-
  The idealized kernel's run with its RESULT read: the same launch over @main's eight segments (five stretches of host
  operations and three kernel regions) that gives the frame, with the last thread state read at one more buffer — the
  result `main_v62`, which after the run holds the last boundary's contents `W8` there: the array region 2's write-backs
  leave. Everything downstream works on `W8`, peeling it back through the regions and the host stretches.
-/
import proofs.«170672_j5471788335191_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the seven arguments end as launched. -/
theorem run_W8 : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

/-- The result buffer is region 2's output array: after the run it holds what region 2's ten write-backs leave. -/
theorem W8_result (c : Dev nD) :
    W8 m ρ c (Proc.devRef .tc main_v62) = (dat2 (V7 m ρ) c).arrAt 2 cfg2.N := W8_arr m ρ c 2

end Cert.KernelIdeal.Run

end
-- ==== Proof.RowForms.lean ====
/-
  Rows of extended reals, as the last layer of the network reads them.

  `rowMax h` is the largest entry of a row `h`, taken from -inf (so that it is -inf for an empty row), and
  `logSoftmaxRow h q = (h q - rowMax h) - log (Σ_k exp (h k - rowMax h))` is entry `q` of the row's log-softmax, written the
  way both programs compute it: shift by the maximum, exponentiate, sum, take the logarithm, subtract. Nothing here is
  simplified — at an infinite entry the expression is whatever the extended reals make of it, the same on both sides.
-/
import Idealize.ShloMosaic.PureOps.Ideal
import Idealize.ShloMosaic.PureOps.Ideal.Laws

noncomputable section

namespace Cert.RowForms

open Idealize.ShloMosaic

/-- The largest entry of a row, from -inf. -/
def rowMax {n : ℕ} (h : Fin n → EReal) : EReal := (Finset.univ : Finset (Fin n)).fold max ⊥ h

/-- Entry `q` of the log-softmax of the row `h`. -/
def logSoftmaxRow {n : ℕ} (h : Fin n → EReal) (q : Fin n) : EReal :=
  (h q - rowMax h) - Ideal.log (∑ k : Fin n, Ideal.exp (h k - rowMax h))

/-- The f32 pattern of -inf denotes -inf. -/
theorem ofBits_neg_inf : Ideal.ofBits .f32 0xFF800000#32 = (⊥ : EReal) := by simp [Ideal.ofBits, Ideal.ieee]

/-- Taking the maximum with -inf changes nothing. -/
theorem max_bot_left (x : EReal) : max (⊥ : EReal) x = x := max_eq_right bot_le

end Cert.RowForms

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«170672_j5471788335191_1_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibRowMax.lean ====
/-
  A maximum taken along the last axis, read at an index, at the ideal values.

  The largest entry of each row of an a × b block, as a kernel's lane reduction computes it, is at row p the fold of
  max, from the value the accumulator's pattern denotes, over the entries (p, k); and the host's reduce with a maximum
  body over the last axis of an a × b × c array is at (p, q) the fold of max, from the initial value, over the entries
  (p, q, k). (The companions for sums are in the file of row operations this one imports.)
-/
import Idealize.ShloMosaic.Lib.ValueIdx
import Idealize.ShloMosaic.PureOps.Ideal.Laws
import Idealize.ShloMosaic.PureOps.Reduce
import proofs.«170672_j5471788335191_1_alg».proof.Proof.LibRowOps

noncomputable section

namespace Cert.LibRowMax

open Idealize.ShloMosaic Idealize.ShloMosaic.ValueIdx

/-- The index a reduction over the last of three axes lifts (p, q) and the position k to is (p, q, k). -/
theorem lift_last {a b c : ℕ} (h : (⟨3, ![a, b, c]⟩ : Shape).Reduces [2] ⟨2, ![a, b]⟩) (p : Fin a) (q : Fin b) (k : Fin c) :
    h.lift (ix2 p q) k = ix3 p q k := by
  funext d
  apply Fin.ext
  show h.liftVal (ix2 p q) k.val d = (ix3 p q k d).val
  match d with
  | ⟨0, _⟩ => simp [Shape.Reduces.liftVal]
  | ⟨1, _⟩ => simp [Shape.Reduces.liftVal]
  | ⟨2, _⟩ => simp [Shape.Reduces.liftVal]

/-- A kernel's lane maximum of an a × b block, at row p: the fold of max over the row's entries. -/
theorem multiReduction_maximumf_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) fun k => src (ix2 p k) :=
  (Ideal.multiReduction_maximumf_single src acc h hφ hacc (ix1 p)).trans
    (congrArg (fun f : Fin b → EReal => Finset.univ.fold max (Ideal.ofBits φ acc) f)
      (funext fun k => congrArg src (Cert.LibRowOps.lift_row h p k)))

/-- The host's reduce with a maximum body over the last axis of an a × b × c array, at (p, q): the fold of max, from
    the initial value, over the entries (p, q, k). -/
theorem hostReduce_maximumf_last_apply {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce FloatOps.maximumf x init h' hu (ix2 p q)
      = (Finset.univ : Finset (Fin c)).fold max (init (Shape.Idx.first hu)) fun k => x (ix3 p q k) :=
  (Host.reduce_eq_fold_single FloatOps.maximumf x init h' h hu (ix2 p q)).trans
    (congrArg (fun f : Fin c → EReal => Finset.univ.fold max (init (Shape.Idx.first hu)) f)
      (funext fun k => congrArg x (lift_last h p q k)))

end Cert.LibRowMax

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What each of the three kernel bodies stores, read at one index of its block, at the ideal values.

  * The first body multiplies a 10000 × 300 block of node features by the 300 × 16 weight matrix: entry (r, n) of what it
    stores is Σ_k X(r, k) · W(k, n) — the narrowing of both operands to bf16 is the identity on extended reals, and the
    product accumulates from zero.
  * The second body adds the 1 × 16 bias row to a 10000 × 16 block, clamps below at zero, and multiplies by the 16 × 10
    weight matrix: entry (r, n) is Σ_k max(C(r, k) + β(0, k), 0) · W(k, n).
  * The third body adds the 1 × 10 bias row to a 10000 × 10 block and takes each row's log-softmax: entry (r, q) is
    `logSoftmaxRow` of the row k ↦ C(r, k) + β(0, k), at q.
-/
import proofs.«170672_j5471788335191_1_alg».proof.Proof.Gen.KernelIdeal.Skeleton
import proofs.«170672_j5471788335191_1_alg».proof.Proof.RowForms
import proofs.«170672_j5471788335191_1_alg».proof.Proof.LibMatmulRows
import proofs.«170672_j5471788335191_1_alg».proof.Proof.LibRowOps
import proofs.«170672_j5471788335191_1_alg».proof.Proof.LibRowMax
import proofs.«170672_j5471788335191_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.RowForms
open Idealize.ShloMosaic Idealize.ShloMosaic.ValueIdx

/-- The first body's product, at (r, n). -/
theorem pay0 (X : Vec Ideal S10000x300 .f32) (W : Vec Ideal S300x16 .f32) (r : Fin 10000) (n : Fin 16) :
    k0_pay1 (F := Ideal) X W (ix2 r n) = ∑ k : Fin 300, X (ix2 r k) * W (ix2 k n) := by
  unfold k0_pay1
  exact Cert.LibMatmulRows.matmul_rows_apply dot_S10000x300_S300x16_S10000x16_1_0_0_1_n_n rfl rfl rfl rfl rfl rfl _ _ r n

/-- The bias row added to a block and clamped below at zero, at (r, k). -/
theorem relu_bias_apply (C : Vec Ideal S10000x16 .f32) (B : Vec Ideal S1x16 .f32) (r : Fin 10000) (k : Fin 16) :
    maximumf (addf (shapeCast S10000x16 C shapeCasts_S10000x16_S10000x16)
        (broadcastTo S10000x16 (shapeCast S1x16 B shapeCasts_S1x16_S1x16) broadcasts_S1x16_S10000x16))
      (broadcast S10000x16 (Scalar.ofBits (F := Ideal) .f32 0x00000000#32)) (ix2 r k)
      = max (C (ix2 r k) + B (ix2 (0 : Fin 1) k)) 0 := by
  rw [shapeCast_self, shapeCast_self]
  show max (C (ix2 r k) + broadcastTo S10000x16 B broadcasts_S1x16_S10000x16 (ix2 r k)) (Ideal.ofBits .f32 0x00000000#32) = _
  rw [broadcastTo_1b_ab_apply, Ideal.ofBits_zero_f32]

/-- The second body's product, at (r, n). -/
theorem pay1 (C : Vec Ideal S10000x16 .f32) (B : Vec Ideal S1x16 .f32) (W : Vec Ideal S16x10 .f32) (r : Fin 10000) (n : Fin 10) :
    k1_pay1 (F := Ideal) C B W (ix2 r n) = ∑ k : Fin 16, max (C (ix2 r k) + B (ix2 (0 : Fin 1) k)) 0 * W (ix2 k n) := by
  unfold k1_pay1
  refine (Cert.LibMatmulRows.matmul_rows_apply dot_S10000x16_S16x10_S10000x10_1_0_0_1_n_n rfl rfl rfl rfl rfl rfl _ _ r n).trans ?_
  refine Finset.sum_congr rfl fun k _ => ?_
  exact congrArg (· * W (ix2 k n)) (relu_bias_apply C B r k)

/-- The bias row added to a block, at (r, k). -/
theorem bias_apply (C : Vec Ideal S10000x10 .f32) (B : Vec Ideal S1x10 .f32) (r : Fin 10000) (k : Fin 10) :
    addf (F := Ideal) (φ := .f32) (shapeCast S10000x10 C shapeCasts_S10000x10_S10000x10)
        (broadcastTo S10000x10 (shapeCast S1x10 B shapeCasts_S1x10_S1x10) broadcasts_S1x10_S10000x10) (ix2 r k)
      = C (ix2 r k) + B (ix2 (0 : Fin 1) k) := by
  rw [shapeCast_self, shapeCast_self]
  show C (ix2 r k) + broadcastTo S10000x10 B broadcasts_S1x10_S10000x10 (ix2 r k) = _
  rw [broadcastTo_1b_ab_apply]

/-- A row quantity kept as a column and repeated along the row, at (r, q): the quantity of row r. -/
theorem column_apply (v : FVec Ideal S10000 .f32) (r : Fin 10000) (q : Fin 10) :
    broadcastTo S10000x10 (shapeCast S10000x1 v shapeCasts_S10000_S10000x1) broadcasts_S10000x1_S10000x10 (ix2 r q) = v (ix1 r) := by
  rw [Cert.LibColumn.broadcastTo_a1_ab_apply, Cert.LibColumn.shapeCast_a_a1_apply]

/-- The largest entry of row r of a block, as the lane reduction takes it from -inf. -/
theorem blockRowMax_apply (V : FVec Ideal S10000x10 .f32) (r : Fin 10000) :
    multiReduction (F := Ideal) .maximumf [1] S10000 V 0xFF800000#32 reduces_S10000x10_S10000 (.inl rfl) rfl (ix1 r)
      = rowMax (fun k : Fin 10 => V (ix2 r k)) := by
  refine (Cert.LibRowMax.multiReduction_maximumf_row_apply V 0xFF800000#32 reduces_S10000x10_S10000 (.inl rfl) rfl r).trans ?_
  unfold rowMax
  rw [ofBits_neg_inf]

/-- A block with each row's largest entry subtracted from the row. -/
def shifted (V : FVec Ideal S10000x10 .f32) : FVec Ideal S10000x10 .f32 :=
  subf V (broadcastTo S10000x10 (shapeCast S10000x1
    (multiReduction (F := Ideal) .maximumf [1] S10000 V 0xFF800000#32 reduces_S10000x10_S10000 (.inl rfl) rfl)
    shapeCasts_S10000_S10000x1) broadcasts_S10000x1_S10000x10)

theorem shifted_apply (V : FVec Ideal S10000x10 .f32) (r : Fin 10000) (q : Fin 10) :
    shifted V (ix2 r q) = V (ix2 r q) - rowMax (fun k : Fin 10 => V (ix2 r k)) := by
  unfold shifted
  show V (ix2 r q) - broadcastTo S10000x10 (shapeCast S10000x1
    (multiReduction (F := Ideal) .maximumf [1] S10000 V 0xFF800000#32 reduces_S10000x10_S10000 (.inl rfl) rfl)
    shapeCasts_S10000_S10000x1) broadcasts_S10000x1_S10000x10 (ix2 r q) = _
  rw [column_apply, blockRowMax_apply]

/-- The logarithm of each row's sum of exponentials of the shifted entries, repeated along the row. -/
def logSumExp (V : FVec Ideal S10000x10 .f32) : FVec Ideal S10000x10 .f32 :=
  broadcastTo S10000x10 (log (F := Ideal) (φ := .f32) (shapeCast S10000x1
    (multiReduction (F := Ideal) .add [1] S10000 (exp (F := Ideal) (φ := .f32) (shifted V)) 0x00000000#32 reduces_S10000x10_S10000 (.inl rfl) rfl)
    shapeCasts_S10000_S10000x1)) broadcasts_S10000x1_S10000x10

theorem logSumExp_apply (V : FVec Ideal S10000x10 .f32) (r : Fin 10000) (q : Fin 10) :
    logSumExp V (ix2 r q) = Ideal.log (∑ k : Fin 10, Ideal.exp (shifted V (ix2 r k))) := by
  unfold logSumExp
  rw [Cert.LibColumn.broadcastTo_a1_ab_apply]
  show Ideal.log (shapeCast S10000x1
    (multiReduction (F := Ideal) .add [1] S10000 (exp (F := Ideal) (φ := .f32) (shifted V)) 0x00000000#32 reduces_S10000x10_S10000 (.inl rfl) rfl)
    shapeCasts_S10000_S10000x1 (ix2 r (0 : Fin 1))) = _
  rw [Cert.LibColumn.shapeCast_a_a1_apply]
  exact congrArg Ideal.log
    (Cert.LibRowOps.multiReduction_row_apply (exp (F := Ideal) (φ := .f32) (shifted V)) 0x00000000#32 reduces_S10000x10_S10000 (.inl rfl) rfl r)

/-- The third body's log-softmax, at (r, q). -/
theorem pay2 (C : Vec Ideal S10000x10 .f32) (B : Vec Ideal S1x10 .f32) (r : Fin 10000) (q : Fin 10) :
    k2_pay1 (F := Ideal) C B (ix2 r q) = logSoftmaxRow (fun k : Fin 10 => C (ix2 r k) + B (ix2 (0 : Fin 1) k)) q := by
  unfold k2_pay1
  show shifted (addf (F := Ideal) (φ := .f32) (shapeCast S10000x10 C shapeCasts_S10000x10_S10000x10)
        (broadcastTo S10000x10 (shapeCast S1x10 B shapeCasts_S1x10_S1x10) broadcasts_S1x10_S10000x10)) (ix2 r q)
      - logSumExp (addf (F := Ideal) (φ := .f32) (shapeCast S10000x10 C shapeCasts_S10000x10_S10000x10)
        (broadcastTo S10000x10 (shapeCast S1x10 B shapeCasts_S1x10_S1x10) broadcasts_S1x10_S10000x10)) (ix2 r q) = _
  rw [logSumExp_apply]
  simp only [shifted_apply, bias_apply]
  rfl

end Cert.KernelIdeal.Payload

end
-- ==== Proof.Layers.lean ====
/-
  The three dense layers of the network as whole-array functions, index by index, over the extended reals.

  * `linear X W`: the product of an a × b matrix by a b × c matrix, entry (p, n) = Σ_k X(p, k) · W(k, n).
  * `hidden C β W`: add the 1 × b row β to every row of the a × b matrix C, clamp below at zero, multiply by the b × c
    matrix W: entry (p, n) = Σ_k max(C(p, k) + β(0, k), 0) · W(k, n).
  * `logSoftmaxBias C β`: add the 1 × b row β to every row of C and take each row's log-softmax.

  Each is stated through its value at explicit coordinates (`…At`), so that a proof about a block of rows and a proof
  about the whole array meet at the same expression.
-/
import proofs.«170672_j5471788335191_1_alg».proof.Proof.RowForms
import Idealize.ShloMosaic.Lib.ValueIdx

noncomputable section

namespace Cert.Layers

open Idealize.ShloMosaic Idealize.ShloMosaic.ValueIdx Cert.RowForms

variable {a b c : ℕ}

/-- Entry (p, n) of the product of X by W. -/
def linearAt (X : (⟨2, ![a, b]⟩ : Shape).Idx → EReal) (W : (⟨2, ![b, c]⟩ : Shape).Idx → EReal) (p : Fin a) (n : Fin c) : EReal :=
  ∑ k : Fin b, X (ix2 p k) * W (ix2 k n)

/-- The product of X by W. -/
def linear (X : (⟨2, ![a, b]⟩ : Shape).Idx → EReal) (W : (⟨2, ![b, c]⟩ : Shape).Idx → EReal) : (⟨2, ![a, c]⟩ : Shape).Idx → EReal :=
  fun i => linearAt X W (i 0) (i 1)

/-- Entry (p, n) of the hidden layer: bias, clamp at zero, product. -/
def hiddenAt (C : (⟨2, ![a, b]⟩ : Shape).Idx → EReal) (β : (⟨2, ![1, b]⟩ : Shape).Idx → EReal)
    (W : (⟨2, ![b, c]⟩ : Shape).Idx → EReal) (p : Fin a) (n : Fin c) : EReal :=
  ∑ k : Fin b, max (C (ix2 p k) + β (ix2 (0 : Fin 1) k)) 0 * W (ix2 k n)

/-- The hidden layer. -/
def hidden (C : (⟨2, ![a, b]⟩ : Shape).Idx → EReal) (β : (⟨2, ![1, b]⟩ : Shape).Idx → EReal)
    (W : (⟨2, ![b, c]⟩ : Shape).Idx → EReal) : (⟨2, ![a, c]⟩ : Shape).Idx → EReal :=
  fun i => hiddenAt C β W (i 0) (i 1)

/-- Entry (p, q) of the output layer: bias, then the row's log-softmax. -/
def logSoftmaxBiasAt (C : (⟨2, ![a, b]⟩ : Shape).Idx → EReal) (β : (⟨2, ![1, b]⟩ : Shape).Idx → EReal) (p : Fin a) (q : Fin b) : EReal :=
  logSoftmaxRow (fun k : Fin b => C (ix2 p k) + β (ix2 (0 : Fin 1) k)) q

/-- The output layer. -/
def logSoftmaxBias (C : (⟨2, ![a, b]⟩ : Shape).Idx → EReal) (β : (⟨2, ![1, b]⟩ : Shape).Idx → EReal) : (⟨2, ![a, b]⟩ : Shape).Idx → EReal :=
  fun i => logSoftmaxBiasAt C β (i 0) (i 1)

end Cert.Layers

end
-- ==== Proof.Blocks0.lean ====
/-
  Region 0 (the first linear layer), from blocks to the whole array.

  The grid has ten points; point t reads rows 10000·t … 10000·t + 9999 of the node features (all 300 columns) and the whole
  300 × 16 weight matrix, and writes rows 10000·t … 10000·t + 9999 of the output. What point t writes back is therefore
  block t of the product `linear X W` of the two arrays as the region finds them: entry (r, n) of the block is
  Σ_k X(10000·t + r, k) · W(k, n). The ten row blocks tile the 100000 × 16 output (row i lies in block i / 10000), so after
  the region the output array IS `linear X W`.
-/
import proofs.«170672_j5471788335191_1_alg».proof.Proof.Gen.KernelIdeal.Frame
import proofs.«170672_j5471788335191_1_alg».proof.Proof.Payload
import proofs.«170672_j5471788335191_1_alg».proof.Proof.Layers

set_option maxRecDepth 16384

noncomputable section

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at point t: the features' and the output's row block is t, everything else 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the features by the weights. -/
theorem flushed_eq (c : Dev nD) (t : Fin cfg0.N) :
    (dat0 (F := Ideal) V c).flushed 2 t
      = ((cfg0.win 2).blk t).view.read (Elt Ideal) (Cert.Layers.linear (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S10000x300) hz, View.ld_unit_zero (S := S300x16) hz]
  obtain ⟨e00, e01, e10, e11, e20, e21⟩ := idx_facts t
  funext j
  obtain ⟨r, n, rfl⟩ : ∃ (r : Fin 10000) (n : Fin 16), j = ix2 r n := ⟨j 0, j 1, eq_ix2 j⟩
  show k0_pay1 (iblk0 V c 0 t) (iblk0 V c 1 t) (ix2 r n)
    = Cert.Layers.linear (V c main_arg0) (V c main_arg3) (((cfg0.win 2).blk t).view.emb (ix2 r n))
  refine (Cert.KernelIdeal.Payload.pay0 (iblk0 V c 0 t) (iblk0 V c 1 t) r n).trans ?_
  unfold Cert.Layers.linear Cert.Layers.linearAt
  refine Finset.sum_congr rfl fun k _ => ?_
  refine congrArg₂ (· * ·) ?_ ?_
  · show V c main_arg0 (((cfg0.win 0).blk t).view.emb (ix2 r k)) = _
    refine congrArg (V c main_arg0) (funext fun a => Fin.ext ?_)
    match a with
    | ⟨0, _⟩ =>
      show win0_0.index t (0 : Fin 2) * 10000 + 1 * r.val = win0_2.index t (0 : Fin 2) * 10000 + 1 * r.val
      omega
    | ⟨1, _⟩ =>
      show win0_0.index t (1 : Fin 2) * 300 + 1 * k.val = k.val
      omega
  · show V c main_arg3 (((cfg0.win 1).blk t).view.emb (ix2 k n)) = _
    refine congrArg (V c main_arg3) (funext fun a => Fin.ext ?_)
    match a with
    | ⟨0, _⟩ =>
      show win0_1.index t (0 : Fin 2) * 300 + 1 * k.val = k.val
      omega
    | ⟨1, _⟩ =>
      show win0_1.index t (1 : Fin 2) * 16 + 1 * n.val = win0_2.index t (1 : Fin 2) * 16 + 1 * n.val
      omega

/-- An index of the output is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v32).slice (win0_2.rect t)).set ↔ _
  rw [View.set_slice_whole, Rect.mem_set_unit]
  exact Iff.rfl

/-- The ten row blocks cover the output: row i lies in block i / 10000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- After the region its output array is the product of the features by the weights. -/
theorem final (c : Dev nD) :
    (dat0 (F := Ideal) V c).arrAt 2 cfg0.N = Cert.Layers.linear (V c main_arg0) (V c main_arg3) :=
  (dat0 (F := Ideal) V c).arrAt_eq_of_cover 2 _ (fun t _ => flushed_eq V c t) cover

end Cert.KernelIdeal.Blocks0

end
-- ==== Proof.Blocks1.lean ====
/-
  Region 1 (the hidden layer), from blocks to the whole array.

  The grid has ten points; point t reads rows 10000·t … 10000·t + 9999 of the 100000 × 16 table of aggregated messages,
  the whole 1 × 16 bias row and the whole 16 × 10 weight matrix, and writes the same rows of the 100000 × 10 output. What
  point t writes back is block t of `hidden C β W`: entry (r, n) of the block is
  Σ_k max(C(10000·t + r, k) + β(0, k), 0) · W(k, n). The ten row blocks tile the output, so after the region the output
  array IS `hidden C β W`.
-/
import proofs.«170672_j5471788335191_1_alg».proof.Proof.Gen.KernelIdeal.Frame
import proofs.«170672_j5471788335191_1_alg».proof.Proof.Payload
import proofs.«170672_j5471788335191_1_alg».proof.Proof.Layers

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at point t: the table's and the output's row block is t, everything else 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block of the output is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of the hidden layer of the three arrays. -/
theorem flushed_eq (c : Dev nD) (t : Fin cfg1.N) :
    (dat1 (F := Ideal) V c).flushed 3 t
      = ((cfg1.win 3).blk t).view.read (Elt Ideal) (Cert.Layers.hidden (V c main_v45) (V c main_v46) (V c main_arg5)) := by
  show (cfg1.win 3).cut (grid1.coords t) ((dat1 (F := Ideal) V c).after 3 t) = _
  rw [after1_3]
  unfold out1_3
  rw [View.canon_unit_zero hz]
  simp only [View.ld_unit_zero (S := S10000x16) hz, View.ld_unit_zero (S := S1x16) hz, View.ld_unit_zero (S := S16x10) hz]
  obtain ⟨e00, e01, e10, e11, e20, e21, e30, e31⟩ := idx_facts t
  funext j
  obtain ⟨r, n, rfl⟩ : ∃ (r : Fin 10000) (n : Fin 10), j = ix2 r n := ⟨j 0, j 1, eq_ix2 j⟩
  show k1_pay1 (iblk1 V c 0 t) (iblk1 V c 1 t) (iblk1 V c 2 t) (ix2 r n)
    = Cert.Layers.hidden (V c main_v45) (V c main_v46) (V c main_arg5) (((cfg1.win 3).blk t).view.emb (ix2 r n))
  refine (Cert.KernelIdeal.Payload.pay1 (iblk1 V c 0 t) (iblk1 V c 1 t) (iblk1 V c 2 t) r n).trans ?_
  unfold Cert.Layers.hidden Cert.Layers.hiddenAt
  refine Finset.sum_congr rfl fun k _ => ?_
  refine congrArg₂ (· * ·) (congrArg (max · 0) (congrArg₂ (· + ·) ?_ ?_)) ?_
  · show V c main_v45 (((cfg1.win 0).blk t).view.emb (ix2 r k)) = _
    refine congrArg (V c main_v45) (funext fun a => Fin.ext ?_)
    match a with
    | ⟨0, _⟩ =>
      show win1_0.index t (0 : Fin 2) * 10000 + 1 * r.val = win1_3.index t (0 : Fin 2) * 10000 + 1 * r.val
      omega
    | ⟨1, _⟩ =>
      show win1_0.index t (1 : Fin 2) * 16 + 1 * k.val = k.val
      omega
  · show V c main_v46 (((cfg1.win 1).blk t).view.emb (ix2 (0 : Fin 1) k)) = _
    refine congrArg (V c main_v46) (funext fun a => Fin.ext ?_)
    match a with
    | ⟨0, _⟩ =>
      show win1_1.index t (0 : Fin 2) * 1 + 1 * 0 = 0
      omega
    | ⟨1, _⟩ =>
      show win1_1.index t (1 : Fin 2) * 16 + 1 * k.val = k.val
      omega
  · show V c main_arg5 (((cfg1.win 2).blk t).view.emb (ix2 k n)) = _
    refine congrArg (V c main_arg5) (funext fun a => Fin.ext ?_)
    match a with
    | ⟨0, _⟩ =>
      show win1_2.index t (0 : Fin 2) * 16 + 1 * k.val = k.val
      omega
    | ⟨1, _⟩ =>
      show win1_2.index t (1 : Fin 2) * 10 + 1 * n.val = win1_3.index t (1 : Fin 2) * 10 + 1 * n.val
      omega

/-- An index of the output is in point t's block iff each coordinate is in the block's range on its axis. -/
theorem mem_blk (t : Fin cfg1.N) (i : S100000x10.Idx) :
    i ∈ ((cfg1.win 3).blk t).view.set ↔ ∀ a : Fin 2, win1_3.index t a * S10000x10.size a ≤ (i a).val
      ∧ (i a).val < win1_3.index t a * S10000x10.size a + S10000x10.size a := by
  show i ∈ ((View.whole main_v47).slice (win1_3.rect t)).set ↔ _
  rw [View.set_slice_whole, Rect.mem_set_unit]
  exact Iff.rfl

/-- The ten row blocks cover the output: row i lies in block i / 10000. -/
theorem cover (i : S100000x10.Idx) :
    ∃ t : Fin cfg1.N, (cfg1.win 3).flush t = true ∧ i ∈ ((cfg1.win 3).blk t).view.set := by
  have hi0 : (i 0).val < 100000 := (i 0).isLt
  have hi1 : (i 1).val < 10 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 10 ≤ (i 1).val ∧ (i 1).val < win1_3.index t (1 : Fin 2) * 10 + 10
    omega

/-- After the region its output array is the hidden layer of the three arrays it read. -/
theorem final (c : Dev nD) :
    (dat1 (F := Ideal) V c).arrAt 3 cfg1.N = Cert.Layers.hidden (V c main_v45) (V c main_v46) (V c main_arg5) :=
  (dat1 (F := Ideal) V c).arrAt_eq_of_cover 3 _ (fun t _ => flushed_eq V c t) cover

end Cert.KernelIdeal.Blocks1

end
-- ==== Proof.Blocks2.lean ====
/-
  Region 2 (the output layer), from blocks to the whole array.

  The grid has ten points; point t reads rows 10000·t … 10000·t + 9999 of the 100000 × 10 table of aggregated messages and
  the whole 1 × 10 bias row, and writes the same rows of the output. A row's log-softmax depends on that row alone, so what
  point t writes back is block t of `logSoftmaxBias C β`: entry (r, q) of the block is the log-softmax, at q, of the row
  k ↦ C(10000·t + r, k) + β(0, k). The ten row blocks tile the output, so after the region the output array IS
  `logSoftmaxBias C β`.
-/
import proofs.«170672_j5471788335191_1_alg».proof.Proof.Gen.KernelIdeal.Frame
import proofs.«170672_j5471788335191_1_alg».proof.Proof.Payload
import proofs.«170672_j5471788335191_1_alg».proof.Proof.Layers

set_option maxRecDepth 16384

noncomputable section

namespace Cert.KernelIdeal.Blocks2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at point t: the table's and the output's row block is t, everything else 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block of the output is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the output layer of the two arrays. -/
theorem flushed_eq (c : Dev nD) (t : Fin cfg2.N) :
    (dat2 (F := Ideal) V c).flushed 2 t
      = ((cfg2.win 2).blk t).view.read (Elt Ideal) (Cert.Layers.logSoftmaxBias (V c main_v60) (V c main_v61)) := by
  show (cfg2.win 2).cut (grid2.coords t) ((dat2 (F := Ideal) V c).after 2 t) = _
  rw [after2_2]
  unfold out2_2
  rw [View.canon_unit_zero hz]
  simp only [View.ld_unit_zero (S := S10000x10) hz, View.ld_unit_zero (S := S1x10) hz]
  obtain ⟨e00, e01, e10, e11, e20, e21⟩ := idx_facts t
  funext j
  obtain ⟨r, q, rfl⟩ : ∃ (r : Fin 10000) (q : Fin 10), j = ix2 r q := ⟨j 0, j 1, eq_ix2 j⟩
  show k2_pay1 (iblk2 V c 0 t) (iblk2 V c 1 t) (ix2 r q)
    = Cert.Layers.logSoftmaxBias (V c main_v60) (V c main_v61) (((cfg2.win 2).blk t).view.emb (ix2 r q))
  refine (Cert.KernelIdeal.Payload.pay2 (iblk2 V c 0 t) (iblk2 V c 1 t) r q).trans ?_
  unfold Cert.Layers.logSoftmaxBias Cert.Layers.logSoftmaxBiasAt
  refine congrArg₂ Cert.RowForms.logSoftmaxRow (funext fun k => congrArg₂ (fun a b : EReal => a + b) ?_ ?_) (Fin.ext ?_)
  · show V c main_v60 (((cfg2.win 0).blk t).view.emb (ix2 r k)) = _
    refine congrArg (V c main_v60) (funext fun a => Fin.ext ?_)
    match a with
    | ⟨0, _⟩ =>
      show win2_0.index t (0 : Fin 2) * 10000 + 1 * r.val = win2_2.index t (0 : Fin 2) * 10000 + 1 * r.val
      omega
    | ⟨1, _⟩ =>
      show win2_0.index t (1 : Fin 2) * 10 + 1 * k.val = k.val
      omega
  · show V c main_v61 (((cfg2.win 1).blk t).view.emb (ix2 (0 : Fin 1) k)) = _
    refine congrArg (V c main_v61) (funext fun a => Fin.ext ?_)
    match a with
    | ⟨0, _⟩ =>
      show win2_1.index t (0 : Fin 2) * 1 + 1 * 0 = 0
      omega
    | ⟨1, _⟩ =>
      show win2_1.index t (1 : Fin 2) * 10 + 1 * k.val = k.val
      omega
  · show q.val = win2_2.index t (1 : Fin 2) * 10 + 1 * q.val
    omega

/-- An index of the output is in point t's block iff each coordinate is in the block's range on its axis. -/
theorem mem_blk (t : Fin cfg2.N) (i : S100000x10.Idx) :
    i ∈ ((cfg2.win 2).blk t).view.set ↔ ∀ a : Fin 2, win2_2.index t a * S10000x10.size a ≤ (i a).val
      ∧ (i a).val < win2_2.index t a * S10000x10.size a + S10000x10.size a := by
  show i ∈ ((View.whole main_v62).slice (win2_2.rect t)).set ↔ _
  rw [View.set_slice_whole, Rect.mem_set_unit]
  exact Iff.rfl

/-- The ten row blocks cover the output: row i lies in block i / 10000. -/
theorem cover (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 10 ≤ (i 1).val ∧ (i 1).val < win2_2.index t (1 : Fin 2) * 10 + 10
    omega

/-- After the region its output array is the output layer of the two arrays it read. -/
theorem final (c : Dev nD) :
    (dat2 (F := Ideal) V c).arrAt 2 cfg2.N = Cert.Layers.logSoftmaxBias (V c main_v60) (V c main_v61) :=
  (dat2 (F := Ideal) V c).arrAt_eq_of_cover 2 _ (fun t _ => flushed_eq V c t) cover

end Cert.KernelIdeal.Blocks2

end
-- ==== Proof.Stages.lean ====
/-
  The graph network's stages as pure functions of the arguments, written once, over the reference program's shape and
  dimension-number records. Both programs are read against these.

  * Edge preparation (`srcIdx`, `dstIdx`, `edgeW`, `degree`, `dinv`, `edgeNorm`): the source and target node of every
    edge with one self-loop per node appended, the edge weights with weight 1 for the self-loops, each node's weighted
    in-degree (a scatter-add of the weights at the targets), its inverse square root where the degree is positive and 0
    elsewhere, and the symmetric normalisation dinv[src] · w · dinv[dst] of every edge.
  * Message passing (`conv16`, `conv10`): gather the source rows of a node table, scale row e by the e-th edge
    coefficient, and scatter-add the rows at the targets, for a table of width 16 and of width 10.
  * `refResult`: the whole network — the first linear layer, message passing, the hidden layer (bias, clamp at zero,
    second linear layer), message passing, bias and the log-softmax of every row.
  The indexing operations stay opaque here: both programs apply the same ones to the same operands.
-/
import proofs.«170672_j5471788335191_1_alg».proof.ReferenceIdeal
import proofs.«170672_j5471788335191_1_alg».proof.Proof.Layers

noncomputable section

namespace Cert.ReferenceIdeal.Stages

open Cert.ReferenceIdeal Idealize.ShloMosaic Idealize.ShloMosaic.ValueIdx

variable [Facts]
open Facts₀ Facts

/-- A node index read as jnp reads a possibly negative one: n is added to an index below zero. -/
def wrapIdx (idx : (⟨S3300000, .i32⟩ : BufTy).Contents (Elt Ideal)) : (⟨S3300000, .i32⟩ : BufTy).Contents (Elt Ideal) :=
  select (cmpi .slt idx (broadcastInDim S3300000 ![] bcast_S_S3300000 (constantI S_ 32 0#32)))
    (addi idx (broadcastInDim S3300000 ![] bcast_S_S3300000 (constantI S_ 32 100000#32))) idx

/-- The source node of every edge, the self-loops' last. -/
def srcIdx (x1 : (⟨S2x3200000, .i32⟩ : BufTy).Contents (Elt Ideal)) : (⟨S3300000, .i32⟩ : BufTy).Contents (Elt Ideal) :=
  concatenate S3300000 0 [⟨S3200000, shapeCast S3200000 (extractStridedSlice S1x3200000 ![0, 0] x1 slices_S2x3200000_S1x3200000_0_0) shapeCasts_S1x3200000_S3200000⟩,
    ⟨S100000, iotaInDim S100000 32 0⟩] concatenates_S3200000_S100000_S3300000_d0

/-- The target node of every edge, the self-loops' last. -/
def dstIdx (x1 : (⟨S2x3200000, .i32⟩ : BufTy).Contents (Elt Ideal)) : (⟨S3300000, .i32⟩ : BufTy).Contents (Elt Ideal) :=
  concatenate S3300000 0 [⟨S3200000, shapeCast S3200000 (extractStridedSlice S1x3200000 ![1, 0] x1 slices_S2x3200000_S1x3200000_1_0) shapeCasts_S1x3200000_S3200000⟩,
    ⟨S100000, iotaInDim S100000 32 0⟩] concatenates_S3200000_S100000_S3300000_d0

/-- The edge weights, weight 1 for every self-loop. -/
def edgeW (x2 : (⟨S3200000, .f32⟩ : BufTy).Contents (Elt Ideal)) : (⟨S3300000, .f32⟩ : BufTy).Contents (Elt Ideal) :=
  concatenate S3300000 0 [⟨S3200000, x2⟩,
    ⟨S100000, broadcastInDim S100000 ![] bcast_S_S100000 (constant (F := Ideal) S_ .f32 0x3F800000#32)⟩] concatenates_S3200000_S100000_S3300000_d0

/-- Each node's weighted in-degree. -/
def degree (x1 : (⟨S2x3200000, .i32⟩ : BufTy).Contents (Elt Ideal)) (x2 : (⟨S3200000, .f32⟩ : BufTy).Contents (Elt Ideal)) :
    (⟨S100000, .f32⟩ : BufTy).Contents (Elt Ideal) :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0 (dstIdx x1)) (edgeW x2)

/-- The inverse square root of the degree where it is positive, 0 elsewhere. -/
def dinv (x1 : (⟨S2x3200000, .i32⟩ : BufTy).Contents (Elt Ideal)) (x2 : (⟨S3200000, .f32⟩ : BufTy).Contents (Elt Ideal)) :
    (⟨S100000, .f32⟩ : BufTy).Contents (Elt Ideal) :=
  select (cmpf (F := Ideal) (φ := .f32) .ogt (degree x1 x2) (broadcastInDim S100000 ![] bcast_S_S100000 (constant (F := Ideal) S_ .f32 0x00000000#32)))
    (Host.rsqrt (F := Ideal) (φ := .f32) (degree x1 x2))
    (broadcastInDim S100000 ![] bcast_S_S100000 (id (constant (F := Ideal) S_ .f32 0x00000000#32)))

/-- A per-node quantity read at every edge's (wrapped) node. -/
def atNodes (tbl : (⟨S100000, .f32⟩ : BufTy).Contents (Elt Ideal)) (idx : (⟨S3300000, .i32⟩ : BufTy).Contents (Elt Ideal)) :
    (⟨S3300000, .f32⟩ : BufTy).Contents (Elt Ideal) :=
  Host.gather gather_S100000_S3300000x1_S3300000_n_0_n_n_0_1_1 tbl (broadcastInDim S3300000x1 ![0] bcast_S3300000_S3300000x1_0 (wrapIdx idx))

/-- Every edge's normalisation coefficient dinv[src] · w · dinv[dst]. -/
def edgeNorm (x1 : (⟨S2x3200000, .i32⟩ : BufTy).Contents (Elt Ideal)) (x2 : (⟨S3200000, .f32⟩ : BufTy).Contents (Elt Ideal)) :
    (⟨S3300000, .f32⟩ : BufTy).Contents (Elt Ideal) :=
  mulf (F := Ideal) (φ := .f32) (mulf (F := Ideal) (φ := .f32) (atNodes (dinv x1 x2) (srcIdx x1)) (edgeW x2)) (atNodes (dinv x1 x2) (dstIdx x1))

/-- Message passing over a node table of width 16. -/
def conv16 (src dst : (⟨S3300000, .i32⟩ : BufTy).Contents (Elt Ideal)) (nrm : (⟨S3300000, .f32⟩ : BufTy).Contents (Elt Ideal))
    (h : (⟨S100000x16, .f32⟩ : BufTy).Contents (Elt Ideal)) : (⟨S100000x16, .f32⟩ : BufTy).Contents (Elt Ideal) :=
  Host.scatterAdd scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 dst)
    (mulf (F := Ideal) (φ := .f32) (Host.gather gather_S100000x16_S3300000x1_S3300000x16_1_0_n_n_0_1_116 h (broadcastInDim S3300000x1 ![0] bcast_S3300000_S3300000x1_0 (wrapIdx src)))
      (broadcastInDim S3300000x16 ![0, 1] bcast_S3300000x1_S3300000x16_0_1 (broadcastInDim S3300000x1 ![0] bcast_S3300000_S3300000x1_0 nrm)))

/-- Message passing over a node table of width 10. -/
def conv10 (src dst : (⟨S3300000, .i32⟩ : BufTy).Contents (Elt Ideal)) (nrm : (⟨S3300000, .f32⟩ : BufTy).Contents (Elt Ideal))
    (h : (⟨S100000x10, .f32⟩ : BufTy).Contents (Elt Ideal)) : (⟨S100000x10, .f32⟩ : BufTy).Contents (Elt Ideal) :=
  Host.scatterAdd scatter_S100000x10_S3300000x1_S3300000x10_1_0_0_1
    (broadcastInDim S100000x10 ![] bcast_S_S100000x10 (constant (F := Ideal) S_ .f32 0x00000000#32))
    (broadcastInDim S3300000x1 ![0] bcast_S3300000_S3300000x1_0 dst)
    (mulf (F := Ideal) (φ := .f32) (Host.gather gather_S100000x10_S3300000x1_S3300000x10_1_0_n_n_0_1_110 h (broadcastInDim S3300000x1 ![0] bcast_S3300000_S3300000x1_0 (wrapIdx src)))
      (broadcastInDim S3300000x10 ![0, 1] bcast_S3300000x1_S3300000x10_0_1 (broadcastInDim S3300000x1 ![0] bcast_S3300000_S3300000x1_0 nrm)))

/-- A vector of b entries as the one row of a 1 × b matrix. -/
def rowOf {b : ℕ} (v : (⟨1, ![b]⟩ : Shape).Idx → EReal) : (⟨2, ![1, b]⟩ : Shape).Idx → EReal := fun i => v (ix1 (i 1))

/-- THE NETWORK: what both programs return, as one function of the seven arguments. -/
def refResult (x0 : (⟨S100000x300, .f32⟩ : BufTy).Contents (Elt Ideal)) (x1 : (⟨S2x3200000, .i32⟩ : BufTy).Contents (Elt Ideal))
    (x2 : (⟨S3200000, .f32⟩ : BufTy).Contents (Elt Ideal)) (x3 : (⟨S300x16, .f32⟩ : BufTy).Contents (Elt Ideal))
    (x4 : (⟨S16, .f32⟩ : BufTy).Contents (Elt Ideal)) (x5 : (⟨S16x10, .f32⟩ : BufTy).Contents (Elt Ideal))
    (x6 : (⟨S10, .f32⟩ : BufTy).Contents (Elt Ideal)) : (⟨S100000x10, .f32⟩ : BufTy).Contents (Elt Ideal) :=
  Cert.Layers.logSoftmaxBias
    (conv10 (srcIdx x1) (dstIdx x1) (edgeNorm x1 x2)
      (Cert.Layers.hidden (conv16 (srcIdx x1) (dstIdx x1) (edgeNorm x1 x2) (Cert.Layers.linear x0 x3)) (rowOf x4) x5))
    (rowOf x6)

end Cert.ReferenceIdeal.Stages

end
-- ==== Proof.KHost.lean ====
/-
  The idealized kernel's host operations, read between the regions.

  Before region 0 the host prepares the edges (source and target nodes with the self-loops, the normalisation coefficient
  of every edge) and leaves the features and the first weight matrix untouched. Between regions 0 and 1 it passes
  messages over the 100000 × 16 table region 0 wrote and views the first bias as a 1 × 16 row; between regions 1 and 2 it
  passes messages over the 100000 × 10 table region 1 wrote and views the second bias as a 1 × 10 row. Each statement
  below says what one buffer holds at a boundary, as the same pure term of the arguments that the reference computes; a
  region changes its own output array and nothing else.
-/
import proofs.«170672_j5471788335191_1_alg».proof.Proof.Gen.KernelIdeal.Frame
import proofs.«170672_j5471788335191_1_alg».proof.Proof.Stages
import Idealize.ShloMosaic.Lib.StableHlo.Run
import Idealize.ShloMosaic.Lib.ValueIdx
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo Idealize.ShloMosaic.ValueIdx

variable [Cert.ReferenceIdeal.Facts]
variable (m : (ℓ : Loc nD τ sig) → Buf (Elt Ideal) ℓ) (ρ : Dev nD → PrngReg)

/-! ## Before region 0: the arguments untouched, the edges prepared -/

set_option maxHeartbeats 4000000 in
theorem W3_main_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl

set_option maxHeartbeats 4000000 in
theorem W3_main_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl

set_option maxHeartbeats 4000000 in
theorem W3_main_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl

set_option maxHeartbeats 4000000 in
theorem W3_main_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

set_option maxHeartbeats 4000000 in
theorem W3_main_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp <;> rfl

set_option maxHeartbeats 4000000 in
/-- The source node of every edge. -/
theorem W3_src (c : Dev nD) :
    W3 m ρ c (Proc.devRef .tc main_v3) = Cert.ReferenceIdeal.Stages.srcIdx (m ((c.tc : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The target node of every edge. -/
theorem W3_dst (c : Dev nD) :
    W3 m ρ c (Proc.devRef .tc main_v6) = Cert.ReferenceIdeal.Stages.dstIdx (m ((c.tc : Thread nD τ).loc main_arg1)) := by
  show StableHlo.after hostOps0_2 (StableHlo.after hostOps0_1 (StableHlo.after hostOps0 (W0 m ρ c))) (Proc.devRef .tc main_v6) = _
  after_results_simp <;> rfl

/-- The @_where call (d^(-1/2) where the degree is positive, 0 elsewhere), from any contents: three operations. -/
theorem where_stage (V1 : Valuation τ sig (Elt Ideal)) :
    StableHlo.after hostOps0_1 V1 (Proc.devRef .tc main_v15)
      = select (V1 (Proc.devRef .tc main_v13)) (V1 (Proc.devRef .tc main_v14))
          (broadcastInDim S100000 ![] bcast_S_S100000 (id (V1 (Proc.devRef .tc main_cst_2)))) := by
  after_results_simp <;> rfl

/-- The coefficient of every edge from the prepared tables, from any contents: the last twenty operations. -/
theorem norm_stage (V2 : Valuation τ sig (Elt Ideal)) :
    StableHlo.after hostOps0_2 V2 (Proc.devRef .tc main_v31)
      = mulf (F := Ideal) (φ := .f32)
          (mulf (F := Ideal) (φ := .f32) (Cert.ReferenceIdeal.Stages.atNodes (V2 (Proc.devRef .tc main_v15)) (V2 (Proc.devRef .tc main_v3))) (V2 (Proc.devRef .tc main_v8)))
          (Cert.ReferenceIdeal.Stages.atNodes (V2 (Proc.devRef .tc main_v15)) (V2 (Proc.devRef .tc main_v6))) := by
  after_results_simp <;> rfl

theorem W1_v13 (c : Dev nD) : W1 m ρ c (Proc.devRef .tc main_v13)
    = cmpf (F := Ideal) (φ := .f32) .ogt (Cert.ReferenceIdeal.Stages.degree (m ((c.tc : Thread nD τ).loc main_arg1)) (m ((c.tc : Thread nD τ).loc main_arg2))) (broadcastInDim S100000 ![] bcast_S_S100000 (constant (F := Ideal) S_ .f32 0x00000000#32)) := by
  show StableHlo.after hostOps0 (W0 m ρ c) (Proc.devRef .tc main_v13) = _
  after_results_simp <;> rfl

theorem W1_v14 (c : Dev nD) : W1 m ρ c (Proc.devRef .tc main_v14) = Host.rsqrt (F := Ideal) (φ := .f32) (Cert.ReferenceIdeal.Stages.degree (m ((c.tc : Thread nD τ).loc main_arg1)) (m ((c.tc : Thread nD τ).loc main_arg2))) := by
  show StableHlo.after hostOps0 (W0 m ρ c) (Proc.devRef .tc main_v14) = _
  after_results_simp <;> rfl

theorem W1_cst2 (c : Dev nD) : W1 m ρ c (Proc.devRef .tc main_cst_2) = constant (F := Ideal) S_ .f32 0x00000000#32 := by
  show StableHlo.after hostOps0 (W0 m ρ c) (Proc.devRef .tc main_cst_2) = _
  after_results_simp <;> rfl

theorem W2_src (c : Dev nD) : W2 m ρ c (Proc.devRef .tc main_v3) = Cert.ReferenceIdeal.Stages.srcIdx (m ((c.tc : Thread nD τ).loc main_arg1)) := by
  show StableHlo.after hostOps0_1 (StableHlo.after hostOps0 (W0 m ρ c)) (Proc.devRef .tc main_v3) = _
  after_results_simp <;> rfl

theorem W2_dst (c : Dev nD) : W2 m ρ c (Proc.devRef .tc main_v6) = Cert.ReferenceIdeal.Stages.dstIdx (m ((c.tc : Thread nD τ).loc main_arg1)) := by
  show StableHlo.after hostOps0_1 (StableHlo.after hostOps0 (W0 m ρ c)) (Proc.devRef .tc main_v6) = _
  after_results_simp <;> rfl

theorem W2_w (c : Dev nD) : W2 m ρ c (Proc.devRef .tc main_v8) = Cert.ReferenceIdeal.Stages.edgeW (m ((c.tc : Thread nD τ).loc main_arg2)) := by
  show StableHlo.after hostOps0_1 (StableHlo.after hostOps0 (W0 m ρ c)) (Proc.devRef .tc main_v8) = _
  after_results_simp <;> rfl

/-- d^(-1/2) where the degree is positive, 0 elsewhere. -/
theorem W2_dinv (c : Dev nD) : W2 m ρ c (Proc.devRef .tc main_v15) = Cert.ReferenceIdeal.Stages.dinv (m ((c.tc : Thread nD τ).loc main_arg1)) (m ((c.tc : Thread nD τ).loc main_arg2)) := by
  show StableHlo.after hostOps0_1 (W1 m ρ c) (Proc.devRef .tc main_v15) = _
  rw [where_stage, W1_v13, W1_v14, W1_cst2]
  rfl

/-- The normalisation coefficient of every edge. -/
theorem W3_norm (c : Dev nD) : W3 m ρ c (Proc.devRef .tc main_v31) = Cert.ReferenceIdeal.Stages.edgeNorm (m ((c.tc : Thread nD τ).loc main_arg1)) (m ((c.tc : Thread nD τ).loc main_arg2)) := by
  show StableHlo.after hostOps0_2 (W2 m ρ c) (Proc.devRef .tc main_v31) = _
  rw [norm_stage, W2_dinv, W2_src, W2_dst, W2_w]
  rfl

/-! ## Region 0 writes its output array only -/

theorem W4_src (c : Dev nD) : W4 m ρ c (Proc.devRef .tc main_v3) = Cert.ReferenceIdeal.Stages.srcIdx (m ((c.tc : Thread nD τ).loc main_arg1)) :=
  (W4_of_ne m ρ c main_v3 (by decide)).trans (W3_src m ρ c)
theorem W4_dst (c : Dev nD) : W4 m ρ c (Proc.devRef .tc main_v6) = Cert.ReferenceIdeal.Stages.dstIdx (m ((c.tc : Thread nD τ).loc main_arg1)) :=
  (W4_of_ne m ρ c main_v6 (by decide)).trans (W3_dst m ρ c)
theorem W4_norm (c : Dev nD) : W4 m ρ c (Proc.devRef .tc main_v31) = Cert.ReferenceIdeal.Stages.edgeNorm (m ((c.tc : Thread nD τ).loc main_arg1)) (m ((c.tc : Thread nD τ).loc main_arg2)) :=
  (W4_of_ne m ρ c main_v31 (by decide)).trans (W3_norm m ρ c)
theorem W4_main_arg4 (c : Dev nD) : W4 m ρ c (Proc.devRef .tc main_arg4) = m ((c.tc : Thread nD τ).loc main_arg4) :=
  (W4_of_ne m ρ c main_arg4 (by decide)).trans (W3_main_arg4 m ρ c)
theorem W4_main_arg5 (c : Dev nD) : W4 m ρ c (Proc.devRef .tc main_arg5) = m ((c.tc : Thread nD τ).loc main_arg5) :=
  (W4_of_ne m ρ c main_arg5 (by decide)).trans (W3_main_arg5 m ρ c)
theorem W4_main_arg6 (c : Dev nD) : W4 m ρ c (Proc.devRef .tc main_arg6) = m ((c.tc : Thread nD τ).loc main_arg6) :=
  (W4_of_ne m ρ c main_arg6 (by decide)).trans (W3_main_arg6 m ρ c)

/-! ## Between regions 0 and 1: message passing over region 0's table, the first bias as a row -/

theorem W5_keep_main_v3 (c : Dev nD) : W5 m ρ c (Proc.devRef .tc main_v3) = W4 m ρ c (Proc.devRef .tc main_v3) := by
  show StableHlo.after hostOps1 (W4 m ρ c) (Proc.devRef .tc main_v3) = _
  after_results_simp <;> rfl

theorem W5_keep_main_v6 (c : Dev nD) : W5 m ρ c (Proc.devRef .tc main_v6) = W4 m ρ c (Proc.devRef .tc main_v6) := by
  show StableHlo.after hostOps1 (W4 m ρ c) (Proc.devRef .tc main_v6) = _
  after_results_simp <;> rfl

theorem W5_keep_main_v31 (c : Dev nD) : W5 m ρ c (Proc.devRef .tc main_v31) = W4 m ρ c (Proc.devRef .tc main_v31) := by
  show StableHlo.after hostOps1 (W4 m ρ c) (Proc.devRef .tc main_v31) = _
  after_results_simp <;> rfl

theorem W5_keep_main_arg5 (c : Dev nD) : W5 m ρ c (Proc.devRef .tc main_arg5) = W4 m ρ c (Proc.devRef .tc main_arg5) := by
  show StableHlo.after hostOps1 (W4 m ρ c) (Proc.devRef .tc main_arg5) = _
  after_results_simp <;> rfl

theorem W5_keep_main_arg6 (c : Dev nD) : W5 m ρ c (Proc.devRef .tc main_arg6) = W4 m ρ c (Proc.devRef .tc main_arg6) := by
  show StableHlo.after hostOps1 (W4 m ρ c) (Proc.devRef .tc main_arg6) = _
  after_results_simp <;> rfl

/-- The aggregated messages: the table region 0 wrote, gathered at the sources, scaled, scatter-added at the targets. -/
theorem W5_conv (c : Dev nD) :
    W5 m ρ c (Proc.devRef .tc main_v45)
      = Cert.ReferenceIdeal.Stages.conv16 (W4 m ρ c (Proc.devRef .tc main_v3)) (W4 m ρ c (Proc.devRef .tc main_v6))
          (W4 m ρ c (Proc.devRef .tc main_v31)) (W4 m ρ c (Proc.devRef .tc main_v32)) := by
  show StableHlo.after hostOps1 (W4 m ρ c) (Proc.devRef .tc main_v45) = _
  after_results_simp <;> rfl

/-- The first bias viewed as a 1 × 16 row, at (u, k): entry k of the bias. -/
theorem W5_bias_apply (c : Dev nD) (u : Fin 1) (k : Fin 16) :
    W5 m ρ c (Proc.devRef .tc main_v46) (ValueIdx.ix2 u k) = W4 m ρ c (Proc.devRef .tc main_arg4) (ValueIdx.ix1 k) := by
  have h : W5 m ρ c (Proc.devRef .tc main_v46)
      = fun i => shapeCast S1x16 (W4 m ρ c (Proc.devRef .tc main_arg4)) shapeCasts_S16_S1x16 i := by
    show StableHlo.after hostOps1 (W4 m ρ c) (Proc.devRef .tc main_v46) = _
    after_results_simp <;> rfl
  rw [h]
  exact shapeCast_a_1a_apply _ _ u k

/-! ## Region 1 writes its output array only -/

theorem W6_src (c : Dev nD) : W6 m ρ c (Proc.devRef .tc main_v3) = Cert.ReferenceIdeal.Stages.srcIdx (m ((c.tc : Thread nD τ).loc main_arg1)) :=
  (W6_of_ne m ρ c main_v3 (by decide)).trans ((W5_keep_main_v3 m ρ c).trans (W4_src m ρ c))
theorem W6_dst (c : Dev nD) : W6 m ρ c (Proc.devRef .tc main_v6) = Cert.ReferenceIdeal.Stages.dstIdx (m ((c.tc : Thread nD τ).loc main_arg1)) :=
  (W6_of_ne m ρ c main_v6 (by decide)).trans ((W5_keep_main_v6 m ρ c).trans (W4_dst m ρ c))
theorem W6_norm (c : Dev nD) : W6 m ρ c (Proc.devRef .tc main_v31) = Cert.ReferenceIdeal.Stages.edgeNorm (m ((c.tc : Thread nD τ).loc main_arg1)) (m ((c.tc : Thread nD τ).loc main_arg2)) :=
  (W6_of_ne m ρ c main_v31 (by decide)).trans ((W5_keep_main_v31 m ρ c).trans (W4_norm m ρ c))
theorem W6_main_arg6 (c : Dev nD) : W6 m ρ c (Proc.devRef .tc main_arg6) = m ((c.tc : Thread nD τ).loc main_arg6) :=
  (W6_of_ne m ρ c main_arg6 (by decide)).trans ((W5_keep_main_arg6 m ρ c).trans (W4_main_arg6 m ρ c))

/-! ## Between regions 1 and 2: message passing over region 1's table, the second bias as a row -/

/-- The aggregated messages: the table region 1 wrote, gathered at the sources, scaled, scatter-added at the targets. -/
theorem W7_conv (c : Dev nD) :
    W7 m ρ c (Proc.devRef .tc main_v60)
      = Cert.ReferenceIdeal.Stages.conv10 (W6 m ρ c (Proc.devRef .tc main_v3)) (W6 m ρ c (Proc.devRef .tc main_v6))
          (W6 m ρ c (Proc.devRef .tc main_v31)) (W6 m ρ c (Proc.devRef .tc main_v47)) := by
  show StableHlo.after hostOps2 (W6 m ρ c) (Proc.devRef .tc main_v60) = _
  after_results_simp <;> rfl

/-- The second bias viewed as a 1 × 10 row, at (u, k): entry k of the bias. -/
theorem W7_bias_apply (c : Dev nD) (u : Fin 1) (k : Fin 10) :
    W7 m ρ c (Proc.devRef .tc main_v61) (ValueIdx.ix2 u k) = W6 m ρ c (Proc.devRef .tc main_arg6) (ValueIdx.ix1 k) := by
  have h : W7 m ρ c (Proc.devRef .tc main_v61)
      = fun i => shapeCast S1x10 (W6 m ρ c (Proc.devRef .tc main_arg6)) shapeCasts_S10_S1x10 i := by
    show StableHlo.after hostOps2 (W6 m ρ c) (Proc.devRef .tc main_v61) = _
    after_results_simp <;> rfl
  rw [h]
  exact shapeCast_a_1a_apply _ _ u k

end Cert.KernelIdeal.KHost

end
-- ==== Proof.KValue.lean ====
/-
  The idealized kernel's result as a function of its arguments.

  Peeling the last boundary's contents back: the result buffer is region 2's output array, the output layer of the
  messages aggregated from region 1's output and the second bias row; region 1's output array is the hidden layer of the
  messages aggregated from region 0's output, the first bias row and the second weight matrix; region 0's output array is
  the product of the features by the first weight matrix. The edge tables the two rounds of message passing use are the
  ones the host prepared before region 0, untouched since. Composed, the result is `refResult` of the seven arguments.
-/
import proofs.«170672_j5471788335191_1_alg».proof.Proof.RunValue
import proofs.«170672_j5471788335191_1_alg».proof.Proof.Blocks0
import proofs.«170672_j5471788335191_1_alg».proof.Proof.Blocks1
import proofs.«170672_j5471788335191_1_alg».proof.Proof.Blocks2
import proofs.«170672_j5471788335191_1_alg».proof.Proof.KHost
import proofs.«170672_j5471788335191_1_alg».proof.Proof.Stages

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

variable [Cert.ReferenceIdeal.Facts]
variable (m : (ℓ : Loc nD τ sig) → Buf (Elt Ideal) ℓ) (ρ : Dev nD → PrngReg)

/-- Region 0's output array: the features times the first weight matrix. -/
theorem W4_out (c : Dev nD) : W4 m ρ c (Proc.devRef .tc main_v32) = Cert.Layers.linear (m ((c.tc : Thread nD τ).loc main_arg0)) (m ((c.tc : Thread nD τ).loc main_arg3)) := by
  rw [show W4 m ρ c (Proc.devRef .tc main_v32) = (dat0 (V3 m ρ) c).arrAt 2 cfg0.N from W4_arr m ρ c 2,
    Cert.KernelIdeal.Blocks0.final (V3 m ρ) c]
  show Cert.Layers.linear (W3 m ρ c (Proc.devRef .tc main_arg0)) (W3 m ρ c (Proc.devRef .tc main_arg3)) = _
  rw [Cert.KernelIdeal.KHost.W3_main_arg0, Cert.KernelIdeal.KHost.W3_main_arg3]

/-- The first bias as region 1 finds it: the one row of a 1 × 16 matrix. -/
theorem W5_row (c : Dev nD) : W5 m ρ c (Proc.devRef .tc main_v46) = Cert.ReferenceIdeal.Stages.rowOf (m ((c.tc : Thread nD τ).loc main_arg4)) := by
  refine funext fun (i : S1x16.Idx) => ?_
  obtain ⟨u, k, rfl⟩ : ∃ (u : Fin 1) (k : Fin 16), i = ix2 u k := ⟨i 0, i 1, eq_ix2 i⟩
  rw [Cert.KernelIdeal.KHost.W5_bias_apply, Cert.KernelIdeal.KHost.W4_main_arg4]
  rfl

/-- Region 1's output array: the hidden layer of the messages aggregated from region 0's output. -/
theorem W6_out (c : Dev nD) : W6 m ρ c (Proc.devRef .tc main_v47) = Cert.Layers.hidden (Cert.ReferenceIdeal.Stages.conv16 (Cert.ReferenceIdeal.Stages.srcIdx (m ((c.tc : Thread nD τ).loc main_arg1))) (Cert.ReferenceIdeal.Stages.dstIdx (m ((c.tc : Thread nD τ).loc main_arg1))) (Cert.ReferenceIdeal.Stages.edgeNorm (m ((c.tc : Thread nD τ).loc main_arg1)) (m ((c.tc : Thread nD τ).loc main_arg2))) (Cert.Layers.linear (m ((c.tc : Thread nD τ).loc main_arg0)) (m ((c.tc : Thread nD τ).loc main_arg3)))) (Cert.ReferenceIdeal.Stages.rowOf (m ((c.tc : Thread nD τ).loc main_arg4))) (m ((c.tc : Thread nD τ).loc main_arg5)) := by
  rw [show W6 m ρ c (Proc.devRef .tc main_v47) = (dat1 (V5 m ρ) c).arrAt 3 cfg1.N from W6_arr m ρ c 3,
    Cert.KernelIdeal.Blocks1.final (V5 m ρ) c]
  show Cert.Layers.hidden (W5 m ρ c (Proc.devRef .tc main_v45)) (W5 m ρ c (Proc.devRef .tc main_v46))
    (W5 m ρ c (Proc.devRef .tc main_arg5)) = _
  rw [Cert.KernelIdeal.KHost.W5_conv, W5_row, Cert.KernelIdeal.KHost.W5_keep_main_arg5, Cert.KernelIdeal.KHost.W4_main_arg5,
    Cert.KernelIdeal.KHost.W4_src, Cert.KernelIdeal.KHost.W4_dst, Cert.KernelIdeal.KHost.W4_norm, W4_out]

/-- The second bias as region 2 finds it: the one row of a 1 × 10 matrix. -/
theorem W7_row (c : Dev nD) : W7 m ρ c (Proc.devRef .tc main_v61) = Cert.ReferenceIdeal.Stages.rowOf (m ((c.tc : Thread nD τ).loc main_arg6)) := by
  refine funext fun (i : S1x10.Idx) => ?_
  obtain ⟨u, k, rfl⟩ : ∃ (u : Fin 1) (k : Fin 10), i = ix2 u k := ⟨i 0, i 1, eq_ix2 i⟩
  rw [Cert.KernelIdeal.KHost.W7_bias_apply, Cert.KernelIdeal.KHost.W6_main_arg6]
  rfl

/-- THE RESULT: the last boundary's contents at the result buffer are the network of the arguments. -/
theorem result_eq (c : Dev nD) : W8 m ρ c (Proc.devRef .tc main_v62) = Cert.ReferenceIdeal.Stages.refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.Run.W8_result m ρ c, Cert.KernelIdeal.Blocks2.final (V7 m ρ) c]
  show Cert.Layers.logSoftmaxBias (W7 m ρ c (Proc.devRef .tc main_v60)) (W7 m ρ c (Proc.devRef .tc main_v61)) = _
  rw [Cert.KernelIdeal.KHost.W7_conv, W7_row, Cert.KernelIdeal.KHost.W6_src, Cert.KernelIdeal.KHost.W6_dst,
    Cert.KernelIdeal.KHost.W6_norm, W6_out]
  rfl

/-- The idealized kernel's run: it terminates without a fault, its result is the network of its arguments, and its
    arguments end as launched. -/
theorem run : θ_run (defs (F := Ideal)) (onTc (τ := τ) (main (F := Ideal))) ⟨m, fun _ => 0, ρ⟩ (fun r => ∀ c : Dev nD,
      r.2.mem ((c.tc : Thread nD τ).loc main_v62) = Cert.ReferenceIdeal.Stages.refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c => ⟨(h c).1.trans (result_eq m ρ c), (h c).2⟩)
    (Cert.KernelIdeal.Run.run_W8 m ρ)

end Cert.KernelIdeal.KValue

end
-- ==== Proof.RefOps.lean ====
/-
  The reference program's host operations as a list, cut into the six stretches of the network, and the facts the
  straight-line run theorem asks of the list: the program is the list run in order, nothing in the signature is scoped,
  every operation touches only the TensorCore's buffers, and every operation determines what it writes.

  The stretches, in order: edge preparation; the first linear layer; message passing over rows of width 16; the hidden
  layer (bias, clamp at zero, second linear layer); message passing over rows of width 10; the output layer (bias and
  each row's log-softmax). An operation of a function the program calls stands in the call's place.
-/
import proofs.«170672_j5471788335191_1_alg».proof.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo

variable {F : FTy → Type} [FloatOps F]
variable [Facts]
open Facts₀ Facts

/-- Edge preparation: the source and target node of every edge with the self-loops appended, the edge weights, each node's
    weighted in-degree, its inverse square root where positive, and every edge's normalisation coefficient (42 operations). -/
abbrev pre : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The first linear layer: the product of the node features by the first weight matrix (1 operation). -/
abbrev dot1 : List (HloOp τ sig (Elt F)) :=
  [ binary main_arg0 main_arg3 main_v32 ((fun l r => Host.dotGeneral dot_S100000x300_S300x16_S100000x16_1_0_0_1_n_n none l r) : (⟨S100000x300, .f32⟩ : BufTy).Contents (Elt F) → (⟨S300x16, .f32⟩ : BufTy).Contents (Elt F) → (⟨S100000x16, .f32⟩ : BufTy).Contents (Elt F)) ]

/-- The first message passing: gather the source rows, scale each by its edge's coefficient, scatter-add at the targets (16 operations). -/
abbrev mp1 : List (HloOp τ sig (Elt F)) :=
  [ nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The hidden layer: add the first bias to every row, clamp below at zero, multiply by the second weight matrix (7 operations). -/
abbrev hid : List (HloOp τ sig (Elt F)) :=
  [ unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)) ]

/-- The second message passing, over rows of width 10 (16 operations). -/
abbrev mp2 : List (HloOp τ sig (Elt F)) :=
  [ nullary main_c_9 (constantI S_ 32 0#32),
    unary main_c_9 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x10 ![0, 1] bcast_S3300000x1_S3300000x10_0_1 : (⟨S3300000x1, .f32⟩ : BufTy).Contents (Elt F) → (⟨S3300000x10, .f32⟩ : BufTy).Contents (Elt F)),
    binary main_v57 main_v59 main_v60 (mulf : (⟨S3300000x10, .f32⟩ : BufTy).Contents (Elt F) → (⟨S3300000x10, .f32⟩ : BufTy).Contents (Elt F) → (⟨S3300000x10, .f32⟩ : BufTy).Contents (Elt F)),
    nullary main_cst_11 (constant S_ .f32 0x00000000#32),
    unary main_cst_11 main_v61 (broadcastInDim S100000x10 ![] bcast_S_S100000x10 : (⟨S_, .f32⟩ : BufTy).Contents (Elt F) → (⟨S100000x10, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)) ]

/-- The output layer: add the second bias to every row and take each row's log-softmax (18 operations). -/
abbrev out : List (HloOp τ sig (Elt F)) :=
  [ unary main_arg6 main_v64 (broadcastInDim S1x10 ![1] bcast_S10_S1x10_1 : (⟨S10, .f32⟩ : BufTy).Contents (Elt F) → (⟨S1x10, .f32⟩ : BufTy).Contents (Elt F)),
    unary main_v64 main_v65 (broadcastInDim S100000x10 ![0, 1] bcast_S1x10_S100000x10_0_1 : (⟨S1x10, .f32⟩ : BufTy).Contents (Elt F) → (⟨S100000x10, .f32⟩ : BufTy).Contents (Elt F)),
    binary main_v63 main_v65 main_v66 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call2_cst) (constant S_ .f32 0xFF800000#32),
    TRef.binary (TRef.of (T := ⟨S100000x10, .f32⟩) main_v66) (TRef.of (T := ⟨S_, .f32⟩) main_call2_cst) (TRef.of (T := ⟨S100000, .f32⟩) main_call2_v0) (fun x v => Host.reduce FloatOps.maximumf x v reducesTo_S100000x10_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x10, .f32⟩) main_call2_v4) (broadcastInDim S100000x10 ![0, 1] bcast_S100000x1_S100000x10_0_1),
    TRef.binary (TRef.of (T := ⟨S100000x10, .f32⟩) main_v66) (TRef.of (T := ⟨S100000x10, .f32⟩) main_call2_v4) (TRef.of (T := ⟨S100000x10, .f32⟩) main_call2_v5) subf,
    TRef.unary (TRef.of (T := ⟨S100000x10, .f32⟩) main_call2_v5) (TRef.of (T := ⟨S100000x10, .f32⟩) main_call2_v6) Host.exp,
    TRef.nullary (TRef.of (T := ⟨S_, .f32⟩) main_call2_cst_1) (constant S_ .f32 0x00000000#32),
    TRef.binary (TRef.of (T := ⟨S100000x10, .f32⟩) main_call2_v6) (TRef.of (T := ⟨S_, .f32⟩) main_call2_cst_1) (TRef.of (T := ⟨S100000, .f32⟩) main_call2_v7) (fun x v => Host.reduceAdd x v reducesTo_S100000x10_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x10, .f32⟩) main_call2_v10) (broadcastInDim S100000x10 ![0, 1] bcast_S100000x1_S100000x10_0_1),
    TRef.binary (TRef.of (T := ⟨S100000x10, .f32⟩) main_call2_v5) (TRef.of (T := ⟨S100000x10, .f32⟩) main_call2_v10) (TRef.of (T := ⟨S100000x10, .f32⟩) main_v67) subf ]

/-- The program's 100 operations, in order. -/
abbrev ops : List (HloOp τ sig (Elt F)) := pre ++ (dot1 ++ (mp1 ++ (hid ++ (mp2 ++ out))))

set_option maxRecDepth 8192 in
set_option maxHeartbeats 4000000 in
/-- The program is its operations run in order. -/
theorem main_eq (c : Dev nD) : main (F := F) c = seq ops := rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

theorem pre_sub : (pre : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem dot1_sub : (dot1 : List (HloOp τ sig (Elt F))).Forall fun op => op.bufs ⊆ tcRefs τ sig :=
  binary_bufs_sub ..

theorem mp1_sub : (mp1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem hid_sub : (hid : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub ..⟩

theorem mp2_sub : (mp2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem out_sub : (out : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation touches only the TensorCore's buffers. -/
theorem ops_sub : (ops : List (HloOp τ sig (Elt F))).Forall fun op => op.bufs ⊆ tcRefs τ sig :=
  List.forall_append.mpr ⟨pre_sub, List.forall_append.mpr ⟨dot1_sub, List.forall_append.mpr ⟨mp1_sub,
    List.forall_append.mpr ⟨hid_sub, List.forall_append.mpr ⟨mp2_sub, out_sub⟩⟩⟩⟩⟩

theorem pre_fresh : ∀ op ∈ (pre : List (HloOp τ sig (Elt F))), op.fresh = ∅ := by
  intro _ h; (repeat (cases h with | head => rfl | tail _ h => ?_)); exact nomatch h

theorem dot1_fresh : ∀ op ∈ (dot1 : List (HloOp τ sig (Elt F))), op.fresh = ∅ := by
  intro _ h; (repeat (cases h with | head => rfl | tail _ h => ?_)); exact nomatch h

theorem mp1_fresh : ∀ op ∈ (mp1 : List (HloOp τ sig (Elt F))), op.fresh = ∅ := by
  intro _ h; (repeat (cases h with | head => rfl | tail _ h => ?_)); exact nomatch h

theorem hid_fresh : ∀ op ∈ (hid : List (HloOp τ sig (Elt F))), op.fresh = ∅ := by
  intro _ h; (repeat (cases h with | head => rfl | tail _ h => ?_)); exact nomatch h

theorem mp2_fresh : ∀ op ∈ (mp2 : List (HloOp τ sig (Elt F))), op.fresh = ∅ := by
  intro _ h; (repeat (cases h with | head => rfl | tail _ h => ?_)); exact nomatch h

theorem out_fresh : ∀ op ∈ (out : List (HloOp τ sig (Elt F))), op.fresh = ∅ := by
  intro _ h; (repeat (cases h with | head => rfl | tail _ h => ?_)); exact nomatch h

/-- Every operation determines what it writes. -/
theorem ops_fresh : ∀ op ∈ (ops : List (HloOp τ sig (Elt F))), op.fresh = ∅ := by
  intro op h
  rcases List.mem_append.mp h with h | h
  · exact pre_fresh op h
  rcases List.mem_append.mp h with h | h
  · exact dot1_fresh op h
  rcases List.mem_append.mp h with h | h
  · exact mp1_fresh op h
  rcases List.mem_append.mp h with h | h
  · exact hid_fresh op h
  rcases List.mem_append.mp h with h | h
  · exact mp2_fresh op h
  · exact out_fresh op h

end Cert.ReferenceIdeal.RefOps

end
-- ==== Proof.LibAfter.lean ====
/-
  The buffers after two lines of host operations run one after the other are the buffers after the second line
  from what the first line leaves: the fold over a concatenation is the composition of the folds.
-/
import Idealize.ShloMosaic.Lib.StableHlo.Run

noncomputable section

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.RefPre.lean ====
/-
  What edge preparation leaves in the buffers the later stretches read, as functions of the buffer contents it starts
  from: the source nodes, the target nodes and the normalisation coefficient of every edge (self-loops included).

  The stretch is read in three steps: the indices, the weights, the degree and its inverse square root; the choice
  "inverse square root where the degree is positive, 0 elsewhere" (the called function's three operations); the two
  gathers at the wrapped node indices and the two products. Each step's composed term is the stage definition itself.
  The program's argument buffers are written by no operation of the stretch.
-/
import proofs.«170672_j5471788335191_1_alg».proof.Proof.RefOps
import proofs.«170672_j5471788335191_1_alg».proof.Proof.Stages
import proofs.«170672_j5471788335191_1_alg».proof.Proof.LibAfter

noncomputable section

namespace Cert.ReferenceIdeal.RefPre

open Cert.ReferenceIdeal Cert.ReferenceIdeal.RefOps Cert.ReferenceIdeal.Stages Idealize.ShloMosaic Idealize.ShloMosaic.TcCoe
  Idealize.SL.Sem Idealize.ShloMosaic.StableHlo

variable [Facts]
open Facts₀ Facts

section Lists
variable {F : FTy → Type} [FloatOps F]

/-- Indices, weights, degree, the comparison with zero and the inverse square root (19 operations). -/
abbrev preA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- The choice between the inverse square root and zero (the called function's 3 operations). -/
abbrev preB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- The wrapped indices, the two gathers of the per-node factor and the two products (20 operations). -/
abbrev preC : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- Edge preparation is the three steps in order. -/
theorem pre_split : (pre : List (HloOp τ sig (Elt F))) = preA ++ (preB ++ preC) := rfl

end Lists

/-! ## The first step -/

theorem preA_v3 (V : Valuation τ sig (Elt Ideal)) :
    after (preA (F := Ideal)) V (Proc.devRef .tc main_v3) = srcIdx (V (Proc.devRef .tc main_arg1)) := by
  after_results_simp <;> rfl

theorem preA_v6 (V : Valuation τ sig (Elt Ideal)) :
    after (preA (F := Ideal)) V (Proc.devRef .tc main_v6) = dstIdx (V (Proc.devRef .tc main_arg1)) := by
  after_results_simp <;> rfl

theorem preA_v8 (V : Valuation τ sig (Elt Ideal)) :
    after (preA (F := Ideal)) V (Proc.devRef .tc main_v8) = edgeW (V (Proc.devRef .tc main_arg2)) := by
  after_results_simp <;> rfl

theorem preA_v13 (V : Valuation τ sig (Elt Ideal)) :
    after (preA (F := Ideal)) V (Proc.devRef .tc main_v13)
      = cmpf (F := Ideal) (φ := .f32) .ogt (degree (V (Proc.devRef .tc main_arg1)) (V (Proc.devRef .tc main_arg2))) (broadcastInDim S100000 ![] bcast_S_S100000 (constant (F := Ideal) S_ .f32 0x00000000#32)) := by
  after_results_simp <;> rfl

theorem preA_v14 (V : Valuation τ sig (Elt Ideal)) :
    after (preA (F := Ideal)) V (Proc.devRef .tc main_v14)
      = Host.rsqrt (F := Ideal) (φ := .f32) (degree (V (Proc.devRef .tc main_arg1)) (V (Proc.devRef .tc main_arg2))) := by
  after_results_simp <;> rfl

theorem preA_cst_2 (V : Valuation τ sig (Elt Ideal)) :
    after (preA (F := Ideal)) V (Proc.devRef .tc main_cst_2) = (constant (F := Ideal) S_ .f32 0x00000000#32) := by
  after_results_simp <;> rfl

theorem preA_keep_arg0 (V : Valuation τ sig (Elt Ideal)) :
    after (preA (F := Ideal)) V (Proc.devRef .tc main_arg0) = V (Proc.devRef .tc main_arg0) := by after_results_simp

theorem preA_keep_arg1 (V : Valuation τ sig (Elt Ideal)) :
    after (preA (F := Ideal)) V (Proc.devRef .tc main_arg1) = V (Proc.devRef .tc main_arg1) := by after_results_simp

theorem preA_keep_arg2 (V : Valuation τ sig (Elt Ideal)) :
    after (preA (F := Ideal)) V (Proc.devRef .tc main_arg2) = V (Proc.devRef .tc main_arg2) := by after_results_simp

theorem preA_keep_arg3 (V : Valuation τ sig (Elt Ideal)) :
    after (preA (F := Ideal)) V (Proc.devRef .tc main_arg3) = V (Proc.devRef .tc main_arg3) := by after_results_simp

theorem preA_keep_arg4 (V : Valuation τ sig (Elt Ideal)) :
    after (preA (F := Ideal)) V (Proc.devRef .tc main_arg4) = V (Proc.devRef .tc main_arg4) := by after_results_simp

theorem preA_keep_arg5 (V : Valuation τ sig (Elt Ideal)) :
    after (preA (F := Ideal)) V (Proc.devRef .tc main_arg5) = V (Proc.devRef .tc main_arg5) := by after_results_simp

theorem preA_keep_arg6 (V : Valuation τ sig (Elt Ideal)) :
    after (preA (F := Ideal)) V (Proc.devRef .tc main_arg6) = V (Proc.devRef .tc main_arg6) := by after_results_simp

/-! ## The second step -/

theorem preB_v15 (V : Valuation τ sig (Elt Ideal)) :
    after (preB (F := Ideal)) V (Proc.devRef .tc main_v15)
      = select (V (Proc.devRef .tc main_v13)) (V (Proc.devRef .tc main_v14)) (broadcastInDim S100000 ![] bcast_S_S100000 (id (V (Proc.devRef .tc main_cst_2)))) := by
  after_results_simp <;> rfl

theorem preB_keep_v3 (V : Valuation τ sig (Elt Ideal)) :
    after (preB (F := Ideal)) V (Proc.devRef .tc main_v3) = V (Proc.devRef .tc main_v3) := by after_results_simp

theorem preB_keep_v6 (V : Valuation τ sig (Elt Ideal)) :
    after (preB (F := Ideal)) V (Proc.devRef .tc main_v6) = V (Proc.devRef .tc main_v6) := by after_results_simp

theorem preB_keep_v8 (V : Valuation τ sig (Elt Ideal)) :
    after (preB (F := Ideal)) V (Proc.devRef .tc main_v8) = V (Proc.devRef .tc main_v8) := by after_results_simp

theorem preB_keep_arg0 (V : Valuation τ sig (Elt Ideal)) :
    after (preB (F := Ideal)) V (Proc.devRef .tc main_arg0) = V (Proc.devRef .tc main_arg0) := by after_results_simp

theorem preB_keep_arg1 (V : Valuation τ sig (Elt Ideal)) :
    after (preB (F := Ideal)) V (Proc.devRef .tc main_arg1) = V (Proc.devRef .tc main_arg1) := by after_results_simp

theorem preB_keep_arg2 (V : Valuation τ sig (Elt Ideal)) :
    after (preB (F := Ideal)) V (Proc.devRef .tc main_arg2) = V (Proc.devRef .tc main_arg2) := by after_results_simp

theorem preB_keep_arg3 (V : Valuation τ sig (Elt Ideal)) :
    after (preB (F := Ideal)) V (Proc.devRef .tc main_arg3) = V (Proc.devRef .tc main_arg3) := by after_results_simp

theorem preB_keep_arg4 (V : Valuation τ sig (Elt Ideal)) :
    after (preB (F := Ideal)) V (Proc.devRef .tc main_arg4) = V (Proc.devRef .tc main_arg4) := by after_results_simp

theorem preB_keep_arg5 (V : Valuation τ sig (Elt Ideal)) :
    after (preB (F := Ideal)) V (Proc.devRef .tc main_arg5) = V (Proc.devRef .tc main_arg5) := by after_results_simp

theorem preB_keep_arg6 (V : Valuation τ sig (Elt Ideal)) :
    after (preB (F := Ideal)) V (Proc.devRef .tc main_arg6) = V (Proc.devRef .tc main_arg6) := by after_results_simp

/-! ## The third step -/

theorem preC_v31 (V : Valuation τ sig (Elt Ideal)) :
    after (preC (F := Ideal)) V (Proc.devRef .tc main_v31)
      = mulf (F := Ideal) (φ := .f32) (mulf (F := Ideal) (φ := .f32) (atNodes (V (Proc.devRef .tc main_v15)) (V (Proc.devRef .tc main_v3))) (V (Proc.devRef .tc main_v8)))
          (atNodes (V (Proc.devRef .tc main_v15)) (V (Proc.devRef .tc main_v6))) := by
  after_results_simp <;> rfl

theorem preC_keep_v3 (V : Valuation τ sig (Elt Ideal)) :
    after (preC (F := Ideal)) V (Proc.devRef .tc main_v3) = V (Proc.devRef .tc main_v3) := by after_results_simp

theorem preC_keep_v6 (V : Valuation τ sig (Elt Ideal)) :
    after (preC (F := Ideal)) V (Proc.devRef .tc main_v6) = V (Proc.devRef .tc main_v6) := by after_results_simp

theorem preC_keep_arg0 (V : Valuation τ sig (Elt Ideal)) :
    after (preC (F := Ideal)) V (Proc.devRef .tc main_arg0) = V (Proc.devRef .tc main_arg0) := by after_results_simp

theorem preC_keep_arg1 (V : Valuation τ sig (Elt Ideal)) :
    after (preC (F := Ideal)) V (Proc.devRef .tc main_arg1) = V (Proc.devRef .tc main_arg1) := by after_results_simp

theorem preC_keep_arg2 (V : Valuation τ sig (Elt Ideal)) :
    after (preC (F := Ideal)) V (Proc.devRef .tc main_arg2) = V (Proc.devRef .tc main_arg2) := by after_results_simp

theorem preC_keep_arg3 (V : Valuation τ sig (Elt Ideal)) :
    after (preC (F := Ideal)) V (Proc.devRef .tc main_arg3) = V (Proc.devRef .tc main_arg3) := by after_results_simp

theorem preC_keep_arg4 (V : Valuation τ sig (Elt Ideal)) :
    after (preC (F := Ideal)) V (Proc.devRef .tc main_arg4) = V (Proc.devRef .tc main_arg4) := by after_results_simp

theorem preC_keep_arg5 (V : Valuation τ sig (Elt Ideal)) :
    after (preC (F := Ideal)) V (Proc.devRef .tc main_arg5) = V (Proc.devRef .tc main_arg5) := by after_results_simp

theorem preC_keep_arg6 (V : Valuation τ sig (Elt Ideal)) :
    after (preC (F := Ideal)) V (Proc.devRef .tc main_arg6) = V (Proc.devRef .tc main_arg6) := by after_results_simp

/-! ## The stretch -/

/-- After edge preparation the buffer of %3 holds every edge's source node. -/
theorem pre_v3 (V : Valuation τ sig (Elt Ideal)) :
    after (pre (F := Ideal)) V (Proc.devRef .tc main_v3) = srcIdx (V (Proc.devRef .tc main_arg1)) := by
  rw [pre_split, after_append, after_append, preC_keep_v3, preB_keep_v3, preA_v3]

/-- After edge preparation the buffer of %6 holds every edge's target node. -/
theorem pre_v6 (V : Valuation τ sig (Elt Ideal)) :
    after (pre (F := Ideal)) V (Proc.devRef .tc main_v6) = dstIdx (V (Proc.devRef .tc main_arg1)) := by
  rw [pre_split, after_append, after_append, preC_keep_v6, preB_keep_v6, preA_v6]

/-- After edge preparation the buffer of %31 holds every edge's normalisation coefficient. -/
theorem pre_v31 (V : Valuation τ sig (Elt Ideal)) :
    after (pre (F := Ideal)) V (Proc.devRef .tc main_v31) = edgeNorm (V (Proc.devRef .tc main_arg1)) (V (Proc.devRef .tc main_arg2)) := by
  rw [pre_split, after_append, after_append, preC_v31, preB_v15, preB_keep_v3, preB_keep_v6, preB_keep_v8,
    preA_v13, preA_v14, preA_cst_2, preA_v3, preA_v6, preA_v8]
  rfl

theorem pre_keep_arg0 (V : Valuation τ sig (Elt Ideal)) :
    after (pre (F := Ideal)) V (Proc.devRef .tc main_arg0) = V (Proc.devRef .tc main_arg0) := by
  rw [pre_split, after_append, after_append, preC_keep_arg0, preB_keep_arg0, preA_keep_arg0]

theorem pre_keep_arg1 (V : Valuation τ sig (Elt Ideal)) :
    after (pre (F := Ideal)) V (Proc.devRef .tc main_arg1) = V (Proc.devRef .tc main_arg1) := by
  rw [pre_split, after_append, after_append, preC_keep_arg1, preB_keep_arg1, preA_keep_arg1]

theorem pre_keep_arg2 (V : Valuation τ sig (Elt Ideal)) :
    after (pre (F := Ideal)) V (Proc.devRef .tc main_arg2) = V (Proc.devRef .tc main_arg2) := by
  rw [pre_split, after_append, after_append, preC_keep_arg2, preB_keep_arg2, preA_keep_arg2]

theorem pre_keep_arg3 (V : Valuation τ sig (Elt Ideal)) :
    after (pre (F := Ideal)) V (Proc.devRef .tc main_arg3) = V (Proc.devRef .tc main_arg3) := by
  rw [pre_split, after_append, after_append, preC_keep_arg3, preB_keep_arg3, preA_keep_arg3]

theorem pre_keep_arg4 (V : Valuation τ sig (Elt Ideal)) :
    after (pre (F := Ideal)) V (Proc.devRef .tc main_arg4) = V (Proc.devRef .tc main_arg4) := by
  rw [pre_split, after_append, after_append, preC_keep_arg4, preB_keep_arg4, preA_keep_arg4]

theorem pre_keep_arg5 (V : Valuation τ sig (Elt Ideal)) :
    after (pre (F := Ideal)) V (Proc.devRef .tc main_arg5) = V (Proc.devRef .tc main_arg5) := by
  rw [pre_split, after_append, after_append, preC_keep_arg5, preB_keep_arg5, preA_keep_arg5]

theorem pre_keep_arg6 (V : Valuation τ sig (Elt Ideal)) :
    after (pre (F := Ideal)) V (Proc.devRef .tc main_arg6) = V (Proc.devRef .tc main_arg6) := by
  rw [pre_split, after_append, after_append, preC_keep_arg6, preB_keep_arg6, preA_keep_arg6]

end Cert.ReferenceIdeal.RefPre

end
-- ==== Proof.LibHostRows.lean ====
/-
  Two host operations on matrices, read at an index, at the ideal values.

  * The host's product of an a × b matrix by a b × c matrix over their one shared axis (the left's axis 1 contracted with
    the right's axis 0, no batch axes) is, at (p, n), the sum over k of the exact products A(p, k) · B(k, n): the
    contraction's own index set is re-indexed by the shared axis's coordinate.
  * The host's reduce with a maximum body along the rows of an a × b array is, at row p, the fold of max, from the
    initial value, over the row's entries (p, k).
-/
import Idealize.ShloMosaic.Lib.ValueIdx
import Idealize.ShloMosaic.PureOps.Ideal.Laws
import Idealize.ShloMosaic.PureOps.Reduce
import proofs.«170672_j5471788335191_1_alg».proof.Proof.LibRowOps
import proofs.«170672_j5471788335191_1_alg».proof.Proof.LibMatmulRows

noncomputable section

namespace Cert.LibHostRows

open Idealize.ShloMosaic Idealize.ShloMosaic.ValueIdx Cert.LibRowOps

/-- The host's product contracting the left's axis 1 with the right's axis 0, read at (p, n), for any dimension-number
    record with the six lists of such a product. -/
theorem dotGeneral_rows_apply {a b c : ℕ} {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    Host.dotGeneral (F := Ideal) d none A B (ix2 p n) = ∑ k : Fin b, A (ix2 p k) * B (ix2 k n) := by
  obtain ⟨lc, rc, ln, rn, lb, rb, wf⟩ := d
  dsimp only at hlc hrc hln hrn hlb hrb
  subst hlc hrc hln hrn hlb hrb
  show FloatOps.dotGeneral (Cert.LibMatmulRows.rowsDims wf) none .single A B (ix2 p n) = _
  rw [Ideal.dotGeneral_apply]
  refine Cert.LibRowOps.sum_contr (Cert.LibMatmulRows.rowsDims wf) rfl rfl ?_ ?_ ?_ ?_ A B p n
  · intro j k
    unfold DotDims.lhsIdx
    rw [dif_neg (show ¬(0 : Fin 2) ∈ (Cert.LibMatmulRows.rowsDims wf).lhsBatch from List.not_mem_nil),
      dif_pos (show (0 : Fin 2) ∈ (Cert.LibMatmulRows.rowsDims wf).lhsNonContracting from List.mem_singleton.mpr rfl)]
    rfl
  · exact fun j k => (Cert.LibMatmulRows.rowsDims wf).lhsIdx_val_of_single rfl j k
  · exact fun j k => (Cert.LibMatmulRows.rowsDims wf).rhsIdx_val_of_single rfl j k
  · intro j k
    unfold DotDims.rhsIdx
    rw [dif_neg (show ¬(1 : Fin 2) ∈ (Cert.LibMatmulRows.rowsDims wf).rhsBatch from List.not_mem_nil),
      dif_pos (show (1 : Fin 2) ∈ (Cert.LibMatmulRows.rowsDims wf).rhsNonContracting from List.mem_singleton.mpr rfl)]
    rfl

/-- The host's reduce with a maximum body along the rows of an a × b array, at row p: the fold of max, from the initial
    value, over the row's entries. -/
theorem hostReduce_maximumf_row_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce FloatOps.maximumf x init h' hu (ix1 p)
      = (Finset.univ : Finset (Fin b)).fold max (init (Shape.Idx.first hu)) fun k => x (ix2 p k) :=
  (Host.reduce_eq_fold_single FloatOps.maximumf x init h' h hu (ix1 p)).trans
    (congrArg (fun f : Fin b → EReal => Finset.univ.fold max (init (Shape.Idx.first hu)) f)
      (funext fun k => congrArg x (lift_row h p k)))

end Cert.LibHostRows

end
-- ==== Proof.RefDot1.lean ====
/-
  The first linear layer. The host's product of an a × b matrix by a b × c matrix over their one shared axis is, at
  (p, n), the sum over k of the exact products X(p, k) · W(k, n): the contraction's own index set is re-indexed by the
  shared axis's coordinate. For the reference's first product this is the layer `linear`, and it is what the one-operation
  stretch leaves in its result buffer; the stretch writes nothing else.
-/
import proofs.«170672_j5471788335191_1_alg».proof.Proof.RefOps
import proofs.«170672_j5471788335191_1_alg».proof.Proof.Stages
import proofs.«170672_j5471788335191_1_alg».proof.Proof.LibHostRows

noncomputable section

namespace Cert.ReferenceIdeal.RefDot1

open Cert.ReferenceIdeal Cert.ReferenceIdeal.RefOps Cert.ReferenceIdeal.Stages Idealize.ShloMosaic Idealize.ShloMosaic.TcCoe
  Idealize.SL.Sem Idealize.ShloMosaic.StableHlo Idealize.ShloMosaic.ValueIdx Cert.LibHostRows

variable [Facts]
open Facts₀ Facts

/-- The reference's first product is the first linear layer. -/
theorem dot1_linear (X : (⟨S100000x300, .f32⟩ : BufTy).Contents (Elt Ideal)) (W : (⟨S300x16, .f32⟩ : BufTy).Contents (Elt Ideal)) :
    Host.dotGeneral (F := Ideal) (φ₁ := .f32) (φ₂ := .f32) dot_S100000x300_S300x16_S100000x16_1_0_0_1_n_n none X W = Cert.Layers.linear X W := by
  funext j
  obtain ⟨p, n, rfl⟩ : ∃ p n, j = ix2 p n := ⟨j 0, j 1, eq_ix2 j⟩
  exact dotGeneral_rows_apply _ rfl rfl rfl rfl rfl rfl X W p n

/-- After the first product the buffer of %32 holds the first linear layer of the node features. -/
theorem dot1_v32 (V : Valuation τ sig (Elt Ideal)) :
    after (dot1 (F := Ideal)) V (Proc.devRef .tc main_v32)
      = Cert.Layers.linear (V (Proc.devRef .tc main_arg0)) (V (Proc.devRef .tc main_arg3)) := by
  after_results
  exact dot1_linear _ _

theorem dot1_keep_v3 (V : Valuation τ sig (Elt Ideal)) :
    after (dot1 (F := Ideal)) V (Proc.devRef .tc main_v3) = V (Proc.devRef .tc main_v3) := by after_results

theorem dot1_keep_v6 (V : Valuation τ sig (Elt Ideal)) :
    after (dot1 (F := Ideal)) V (Proc.devRef .tc main_v6) = V (Proc.devRef .tc main_v6) := by after_results

theorem dot1_keep_v31 (V : Valuation τ sig (Elt Ideal)) :
    after (dot1 (F := Ideal)) V (Proc.devRef .tc main_v31) = V (Proc.devRef .tc main_v31) := by after_results

theorem dot1_keep_arg0 (V : Valuation τ sig (Elt Ideal)) :
    after (dot1 (F := Ideal)) V (Proc.devRef .tc main_arg0) = V (Proc.devRef .tc main_arg0) := by after_results

theorem dot1_keep_arg1 (V : Valuation τ sig (Elt Ideal)) :
    after (dot1 (F := Ideal)) V (Proc.devRef .tc main_arg1) = V (Proc.devRef .tc main_arg1) := by after_results

theorem dot1_keep_arg2 (V : Valuation τ sig (Elt Ideal)) :
    after (dot1 (F := Ideal)) V (Proc.devRef .tc main_arg2) = V (Proc.devRef .tc main_arg2) := by after_results

theorem dot1_keep_arg3 (V : Valuation τ sig (Elt Ideal)) :
    after (dot1 (F := Ideal)) V (Proc.devRef .tc main_arg3) = V (Proc.devRef .tc main_arg3) := by after_results

theorem dot1_keep_arg4 (V : Valuation τ sig (Elt Ideal)) :
    after (dot1 (F := Ideal)) V (Proc.devRef .tc main_arg4) = V (Proc.devRef .tc main_arg4) := by after_results

theorem dot1_keep_arg5 (V : Valuation τ sig (Elt Ideal)) :
    after (dot1 (F := Ideal)) V (Proc.devRef .tc main_arg5) = V (Proc.devRef .tc main_arg5) := by after_results

theorem dot1_keep_arg6 (V : Valuation τ sig (Elt Ideal)) :
    after (dot1 (F := Ideal)) V (Proc.devRef .tc main_arg6) = V (Proc.devRef .tc main_arg6) := by after_results

end Cert.ReferenceIdeal.RefDot1

end
-- ==== Proof.RefMp.lean ====
/-
  What the two message-passing stretches leave in their result buffers, as functions of the buffer contents they start
  from: the scatter-add, at the target nodes, of the gathered source rows scaled by the edge coefficients. The operations'
  composed terms are the stage definitions themselves. Neither stretch writes the edge buffers, the other layers' inputs
  or the program's arguments.
-/
import proofs.«170672_j5471788335191_1_alg».proof.Proof.RefOps
import proofs.«170672_j5471788335191_1_alg».proof.Proof.Stages

noncomputable section

namespace Cert.ReferenceIdeal.RefMp

open Cert.ReferenceIdeal Cert.ReferenceIdeal.RefOps Cert.ReferenceIdeal.Stages Idealize.ShloMosaic Idealize.ShloMosaic.TcCoe
  Idealize.SL.Sem Idealize.ShloMosaic.StableHlo

variable [Facts]
open Facts₀ Facts

/-- After the first message passing the buffer of %45 holds the aggregated rows of width 16. -/
theorem mp1_v45 (V : Valuation τ sig (Elt Ideal)) :
    after (mp1 (F := Ideal)) V (Proc.devRef .tc main_v45)
      = conv16 (V (Proc.devRef .tc main_v3)) (V (Proc.devRef .tc main_v6)) (V (Proc.devRef .tc main_v31)) (V (Proc.devRef .tc main_v32)) := by
  after_results_simp <;> rfl

/-- After the second message passing the buffer of %63 holds the aggregated rows of width 10. -/
theorem mp2_v63 (V : Valuation τ sig (Elt Ideal)) :
    after (mp2 (F := Ideal)) V (Proc.devRef .tc main_v63)
      = conv10 (V (Proc.devRef .tc main_v3)) (V (Proc.devRef .tc main_v6)) (V (Proc.devRef .tc main_v31)) (V (Proc.devRef .tc main_v50)) := by
  after_results_simp <;> rfl

theorem mp1_keep_v3 (V : Valuation τ sig (Elt Ideal)) :
    after (mp1 (F := Ideal)) V (Proc.devRef .tc main_v3) = V (Proc.devRef .tc main_v3) := by after_results_simp

theorem mp1_keep_v6 (V : Valuation τ sig (Elt Ideal)) :
    after (mp1 (F := Ideal)) V (Proc.devRef .tc main_v6) = V (Proc.devRef .tc main_v6) := by after_results_simp

theorem mp1_keep_v31 (V : Valuation τ sig (Elt Ideal)) :
    after (mp1 (F := Ideal)) V (Proc.devRef .tc main_v31) = V (Proc.devRef .tc main_v31) := by after_results_simp

theorem mp1_keep_arg0 (V : Valuation τ sig (Elt Ideal)) :
    after (mp1 (F := Ideal)) V (Proc.devRef .tc main_arg0) = V (Proc.devRef .tc main_arg0) := by after_results_simp

theorem mp1_keep_arg1 (V : Valuation τ sig (Elt Ideal)) :
    after (mp1 (F := Ideal)) V (Proc.devRef .tc main_arg1) = V (Proc.devRef .tc main_arg1) := by after_results_simp

theorem mp1_keep_arg2 (V : Valuation τ sig (Elt Ideal)) :
    after (mp1 (F := Ideal)) V (Proc.devRef .tc main_arg2) = V (Proc.devRef .tc main_arg2) := by after_results_simp

theorem mp1_keep_arg3 (V : Valuation τ sig (Elt Ideal)) :
    after (mp1 (F := Ideal)) V (Proc.devRef .tc main_arg3) = V (Proc.devRef .tc main_arg3) := by after_results_simp

theorem mp1_keep_arg4 (V : Valuation τ sig (Elt Ideal)) :
    after (mp1 (F := Ideal)) V (Proc.devRef .tc main_arg4) = V (Proc.devRef .tc main_arg4) := by after_results_simp

theorem mp1_keep_arg5 (V : Valuation τ sig (Elt Ideal)) :
    after (mp1 (F := Ideal)) V (Proc.devRef .tc main_arg5) = V (Proc.devRef .tc main_arg5) := by after_results_simp

theorem mp1_keep_arg6 (V : Valuation τ sig (Elt Ideal)) :
    after (mp1 (F := Ideal)) V (Proc.devRef .tc main_arg6) = V (Proc.devRef .tc main_arg6) := by after_results_simp

theorem mp2_keep_arg0 (V : Valuation τ sig (Elt Ideal)) :
    after (mp2 (F := Ideal)) V (Proc.devRef .tc main_arg0) = V (Proc.devRef .tc main_arg0) := by after_results_simp

theorem mp2_keep_arg1 (V : Valuation τ sig (Elt Ideal)) :
    after (mp2 (F := Ideal)) V (Proc.devRef .tc main_arg1) = V (Proc.devRef .tc main_arg1) := by after_results_simp

theorem mp2_keep_arg2 (V : Valuation τ sig (Elt Ideal)) :
    after (mp2 (F := Ideal)) V (Proc.devRef .tc main_arg2) = V (Proc.devRef .tc main_arg2) := by after_results_simp

theorem mp2_keep_arg3 (V : Valuation τ sig (Elt Ideal)) :
    after (mp2 (F := Ideal)) V (Proc.devRef .tc main_arg3) = V (Proc.devRef .tc main_arg3) := by after_results_simp

theorem mp2_keep_arg4 (V : Valuation τ sig (Elt Ideal)) :
    after (mp2 (F := Ideal)) V (Proc.devRef .tc main_arg4) = V (Proc.devRef .tc main_arg4) := by after_results_simp

theorem mp2_keep_arg5 (V : Valuation τ sig (Elt Ideal)) :
    after (mp2 (F := Ideal)) V (Proc.devRef .tc main_arg5) = V (Proc.devRef .tc main_arg5) := by after_results_simp

theorem mp2_keep_arg6 (V : Valuation τ sig (Elt Ideal)) :
    after (mp2 (F := Ideal)) V (Proc.devRef .tc main_arg6) = V (Proc.devRef .tc main_arg6) := by after_results_simp

end Cert.ReferenceIdeal.RefMp

end
-- ==== Proof.RefHid.lean ====
/-
  The hidden layer. The stretch adds the first bias to every row of the aggregated node table (the bias broadcast first to
  a 1 × 16 row, then along the rows), takes the maximum with zero (the called function's three operations: the constant 0,
  its broadcast, the maximum), and multiplies by the second weight matrix. At (p, n) the result is the sum over k of
  max(C(p, k) + β(k), 0) · W(k, n), which is the layer `hidden`. The stretch is read in those three steps.
-/
import proofs.«170672_j5471788335191_1_alg».proof.Proof.RefOps
import proofs.«170672_j5471788335191_1_alg».proof.Proof.Stages
import proofs.«170672_j5471788335191_1_alg».proof.Proof.LibAfter
import proofs.«170672_j5471788335191_1_alg».proof.Proof.LibRowOps
import proofs.«170672_j5471788335191_1_alg».proof.Proof.LibHostRows

noncomputable section

namespace Cert.ReferenceIdeal.RefHid

open Cert.ReferenceIdeal Cert.ReferenceIdeal.RefOps Cert.ReferenceIdeal.Stages Idealize.ShloMosaic Idealize.ShloMosaic.TcCoe
  Idealize.SL.Sem Idealize.ShloMosaic.StableHlo Idealize.ShloMosaic.ValueIdx Cert.LibHostRows

variable [Facts]
open Facts₀ Facts

section Lists
variable {F : FTy → Type} [FloatOps F]

/-- The bias broadcast to the table's shape and added (3 operations). -/
abbrev hidA : List (HloOp τ sig (Elt F)) :=
  [ unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)) ]

/-- The maximum with zero (the called function's 3 operations). -/
abbrev hidB : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- The product with the second weight matrix (1 operation). -/
abbrev hidC : List (HloOp τ sig (Elt F)) :=
  [ binary main_v49 main_arg5 main_v50 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)) ]

/-- The hidden layer's stretch is the three steps in order. -/
theorem hid_split : (hid : List (HloOp τ sig (Elt F))) = hidA ++ (hidB ++ hidC) := rfl

end Lists

theorem hidA_v48 (V : Valuation τ sig (Elt Ideal)) :
    after (hidA (F := Ideal)) V (Proc.devRef .tc main_v48)
      = addf (F := Ideal) (φ := .f32) (V (Proc.devRef .tc main_v45)) (broadcastInDim S100000x16 ![0, 1] bcast_S1x16_S100000x16_0_1 (broadcastInDim S1x16 ![1] bcast_S16_S1x16_1 (V (Proc.devRef .tc main_arg4)))) := by
  after_results_simp <;> rfl

theorem hidB_v49 (V : Valuation τ sig (Elt Ideal)) :
    after (hidB (F := Ideal)) V (Proc.devRef .tc main_v49)
      = maximumf (F := Ideal) (φ := .f32) (V (Proc.devRef .tc main_v48)) (broadcastInDim S100000x16 ![] bcast_S_S100000x16 (constant (F := Ideal) S_ .f32 0x00000000#32)) := by
  after_results_simp <;> rfl

theorem hidC_v50 (V : Valuation τ sig (Elt Ideal)) :
    after (hidC (F := Ideal)) V (Proc.devRef .tc main_v50)
      = Host.dotGeneral (F := Ideal) (φ₁ := .f32) (φ₂ := .f32) dot_S100000x16_S16x10_S100000x10_1_0_0_1_n_n none (V (Proc.devRef .tc main_v49)) (V (Proc.devRef .tc main_arg5)) := by
  after_results_simp <;> rfl

theorem hidA_keep_v3 (V : Valuation τ sig (Elt Ideal)) :
    after (hidA (F := Ideal)) V (Proc.devRef .tc main_v3) = V (Proc.devRef .tc main_v3) := by after_results_simp

theorem hidA_keep_v6 (V : Valuation τ sig (Elt Ideal)) :
    after (hidA (F := Ideal)) V (Proc.devRef .tc main_v6) = V (Proc.devRef .tc main_v6) := by after_results_simp

theorem hidA_keep_v31 (V : Valuation τ sig (Elt Ideal)) :
    after (hidA (F := Ideal)) V (Proc.devRef .tc main_v31) = V (Proc.devRef .tc main_v31) := by after_results_simp

theorem hidA_keep_arg0 (V : Valuation τ sig (Elt Ideal)) :
    after (hidA (F := Ideal)) V (Proc.devRef .tc main_arg0) = V (Proc.devRef .tc main_arg0) := by after_results_simp

theorem hidA_keep_arg1 (V : Valuation τ sig (Elt Ideal)) :
    after (hidA (F := Ideal)) V (Proc.devRef .tc main_arg1) = V (Proc.devRef .tc main_arg1) := by after_results_simp

theorem hidA_keep_arg2 (V : Valuation τ sig (Elt Ideal)) :
    after (hidA (F := Ideal)) V (Proc.devRef .tc main_arg2) = V (Proc.devRef .tc main_arg2) := by after_results_simp

theorem hidA_keep_arg3 (V : Valuation τ sig (Elt Ideal)) :
    after (hidA (F := Ideal)) V (Proc.devRef .tc main_arg3) = V (Proc.devRef .tc main_arg3) := by after_results_simp

theorem hidA_keep_arg4 (V : Valuation τ sig (Elt Ideal)) :
    after (hidA (F := Ideal)) V (Proc.devRef .tc main_arg4) = V (Proc.devRef .tc main_arg4) := by after_results_simp

theorem hidA_keep_arg5 (V : Valuation τ sig (Elt Ideal)) :
    after (hidA (F := Ideal)) V (Proc.devRef .tc main_arg5) = V (Proc.devRef .tc main_arg5) := by after_results_simp

theorem hidA_keep_arg6 (V : Valuation τ sig (Elt Ideal)) :
    after (hidA (F := Ideal)) V (Proc.devRef .tc main_arg6) = V (Proc.devRef .tc main_arg6) := by after_results_simp

theorem hidB_keep_v3 (V : Valuation τ sig (Elt Ideal)) :
    after (hidB (F := Ideal)) V (Proc.devRef .tc main_v3) = V (Proc.devRef .tc main_v3) := by after_results_simp

theorem hidB_keep_v6 (V : Valuation τ sig (Elt Ideal)) :
    after (hidB (F := Ideal)) V (Proc.devRef .tc main_v6) = V (Proc.devRef .tc main_v6) := by after_results_simp

theorem hidB_keep_v31 (V : Valuation τ sig (Elt Ideal)) :
    after (hidB (F := Ideal)) V (Proc.devRef .tc main_v31) = V (Proc.devRef .tc main_v31) := by after_results_simp

theorem hidB_keep_arg0 (V : Valuation τ sig (Elt Ideal)) :
    after (hidB (F := Ideal)) V (Proc.devRef .tc main_arg0) = V (Proc.devRef .tc main_arg0) := by after_results_simp

theorem hidB_keep_arg1 (V : Valuation τ sig (Elt Ideal)) :
    after (hidB (F := Ideal)) V (Proc.devRef .tc main_arg1) = V (Proc.devRef .tc main_arg1) := by after_results_simp

theorem hidB_keep_arg2 (V : Valuation τ sig (Elt Ideal)) :
    after (hidB (F := Ideal)) V (Proc.devRef .tc main_arg2) = V (Proc.devRef .tc main_arg2) := by after_results_simp

theorem hidB_keep_arg3 (V : Valuation τ sig (Elt Ideal)) :
    after (hidB (F := Ideal)) V (Proc.devRef .tc main_arg3) = V (Proc.devRef .tc main_arg3) := by after_results_simp

theorem hidB_keep_arg4 (V : Valuation τ sig (Elt Ideal)) :
    after (hidB (F := Ideal)) V (Proc.devRef .tc main_arg4) = V (Proc.devRef .tc main_arg4) := by after_results_simp

theorem hidB_keep_arg5 (V : Valuation τ sig (Elt Ideal)) :
    after (hidB (F := Ideal)) V (Proc.devRef .tc main_arg5) = V (Proc.devRef .tc main_arg5) := by after_results_simp

theorem hidB_keep_arg6 (V : Valuation τ sig (Elt Ideal)) :
    after (hidB (F := Ideal)) V (Proc.devRef .tc main_arg6) = V (Proc.devRef .tc main_arg6) := by after_results_simp

theorem hidC_keep_v3 (V : Valuation τ sig (Elt Ideal)) :
    after (hidC (F := Ideal)) V (Proc.devRef .tc main_v3) = V (Proc.devRef .tc main_v3) := by after_results_simp

theorem hidC_keep_v6 (V : Valuation τ sig (Elt Ideal)) :
    after (hidC (F := Ideal)) V (Proc.devRef .tc main_v6) = V (Proc.devRef .tc main_v6) := by after_results_simp

theorem hidC_keep_v31 (V : Valuation τ sig (Elt Ideal)) :
    after (hidC (F := Ideal)) V (Proc.devRef .tc main_v31) = V (Proc.devRef .tc main_v31) := by after_results_simp

theorem hidC_keep_arg0 (V : Valuation τ sig (Elt Ideal)) :
    after (hidC (F := Ideal)) V (Proc.devRef .tc main_arg0) = V (Proc.devRef .tc main_arg0) := by after_results_simp

theorem hidC_keep_arg1 (V : Valuation τ sig (Elt Ideal)) :
    after (hidC (F := Ideal)) V (Proc.devRef .tc main_arg1) = V (Proc.devRef .tc main_arg1) := by after_results_simp

theorem hidC_keep_arg2 (V : Valuation τ sig (Elt Ideal)) :
    after (hidC (F := Ideal)) V (Proc.devRef .tc main_arg2) = V (Proc.devRef .tc main_arg2) := by after_results_simp

theorem hidC_keep_arg3 (V : Valuation τ sig (Elt Ideal)) :
    after (hidC (F := Ideal)) V (Proc.devRef .tc main_arg3) = V (Proc.devRef .tc main_arg3) := by after_results_simp

theorem hidC_keep_arg4 (V : Valuation τ sig (Elt Ideal)) :
    after (hidC (F := Ideal)) V (Proc.devRef .tc main_arg4) = V (Proc.devRef .tc main_arg4) := by after_results_simp

theorem hidC_keep_arg5 (V : Valuation τ sig (Elt Ideal)) :
    after (hidC (F := Ideal)) V (Proc.devRef .tc main_arg5) = V (Proc.devRef .tc main_arg5) := by after_results_simp

theorem hidC_keep_arg6 (V : Valuation τ sig (Elt Ideal)) :
    after (hidC (F := Ideal)) V (Proc.devRef .tc main_arg6) = V (Proc.devRef .tc main_arg6) := by after_results_simp

/-- Bias, clamp at zero and product, read at every index, are the hidden layer. -/
theorem hid_eq (C : (⟨S100000x16, .f32⟩ : BufTy).Contents (Elt Ideal)) (b1 : (⟨S16, .f32⟩ : BufTy).Contents (Elt Ideal))
    (W : (⟨S16x10, .f32⟩ : BufTy).Contents (Elt Ideal)) :
    Host.dotGeneral (F := Ideal) (φ₁ := .f32) (φ₂ := .f32) dot_S100000x16_S16x10_S100000x10_1_0_0_1_n_n none
        (maximumf (F := Ideal) (φ := .f32) (addf (F := Ideal) (φ := .f32) C (broadcastInDim S100000x16 ![0, 1] bcast_S1x16_S100000x16_0_1 (broadcastInDim S1x16 ![1] bcast_S16_S1x16_1 b1))) (broadcastInDim S100000x16 ![] bcast_S_S100000x16 (constant (F := Ideal) S_ .f32 0x00000000#32))) W
      = Cert.Layers.hidden C (rowOf b1) W := by
  funext j
  obtain ⟨p, n, rfl⟩ : ∃ p n, j = ix2 p n := ⟨j 0, j 1, eq_ix2 j⟩
  refine (dotGeneral_rows_apply _ rfl rfl rfl rfl rfl rfl _ W p n).trans ?_
  show _ = ∑ k : Fin 16, max (C (ix2 p k) + rowOf b1 (ix2 (0 : Fin 1) k)) 0 * W (ix2 k n)
  refine Finset.sum_congr rfl fun k _ => ?_
  rw [maximumf_apply, addf_apply, Cert.LibRowOps.broadcastInDim_1b_ab_apply, Cert.LibRowOps.broadcastInDim_b_1b_apply,
    Cert.LibRowOps.broadcastInDim_scalar_apply, constant_apply, Ideal.ofBits_zero_f32]
  rfl

/-- After the hidden layer's stretch the buffer of %50 holds the hidden layer of the aggregated table. -/
theorem hid_v50 (V : Valuation τ sig (Elt Ideal)) :
    after (hid (F := Ideal)) V (Proc.devRef .tc main_v50)
      = Cert.Layers.hidden (V (Proc.devRef .tc main_v45)) (rowOf (V (Proc.devRef .tc main_arg4))) (V (Proc.devRef .tc main_arg5)) := by
  rw [hid_split, after_append, after_append, hidC_v50, hidB_v49, hidB_keep_arg5, hidA_v48, hidA_keep_arg5]
  exact hid_eq _ _ _

theorem hid_keep_v3 (V : Valuation τ sig (Elt Ideal)) :
    after (hid (F := Ideal)) V (Proc.devRef .tc main_v3) = V (Proc.devRef .tc main_v3) := by
  rw [hid_split, after_append, after_append, hidC_keep_v3, hidB_keep_v3, hidA_keep_v3]

theorem hid_keep_v6 (V : Valuation τ sig (Elt Ideal)) :
    after (hid (F := Ideal)) V (Proc.devRef .tc main_v6) = V (Proc.devRef .tc main_v6) := by
  rw [hid_split, after_append, after_append, hidC_keep_v6, hidB_keep_v6, hidA_keep_v6]

theorem hid_keep_v31 (V : Valuation τ sig (Elt Ideal)) :
    after (hid (F := Ideal)) V (Proc.devRef .tc main_v31) = V (Proc.devRef .tc main_v31) := by
  rw [hid_split, after_append, after_append, hidC_keep_v31, hidB_keep_v31, hidA_keep_v31]

theorem hid_keep_arg0 (V : Valuation τ sig (Elt Ideal)) :
    after (hid (F := Ideal)) V (Proc.devRef .tc main_arg0) = V (Proc.devRef .tc main_arg0) := by
  rw [hid_split, after_append, after_append, hidC_keep_arg0, hidB_keep_arg0, hidA_keep_arg0]

theorem hid_keep_arg1 (V : Valuation τ sig (Elt Ideal)) :
    after (hid (F := Ideal)) V (Proc.devRef .tc main_arg1) = V (Proc.devRef .tc main_arg1) := by
  rw [hid_split, after_append, after_append, hidC_keep_arg1, hidB_keep_arg1, hidA_keep_arg1]

theorem hid_keep_arg2 (V : Valuation τ sig (Elt Ideal)) :
    after (hid (F := Ideal)) V (Proc.devRef .tc main_arg2) = V (Proc.devRef .tc main_arg2) := by
  rw [hid_split, after_append, after_append, hidC_keep_arg2, hidB_keep_arg2, hidA_keep_arg2]

theorem hid_keep_arg3 (V : Valuation τ sig (Elt Ideal)) :
    after (hid (F := Ideal)) V (Proc.devRef .tc main_arg3) = V (Proc.devRef .tc main_arg3) := by
  rw [hid_split, after_append, after_append, hidC_keep_arg3, hidB_keep_arg3, hidA_keep_arg3]

theorem hid_keep_arg4 (V : Valuation τ sig (Elt Ideal)) :
    after (hid (F := Ideal)) V (Proc.devRef .tc main_arg4) = V (Proc.devRef .tc main_arg4) := by
  rw [hid_split, after_append, after_append, hidC_keep_arg4, hidB_keep_arg4, hidA_keep_arg4]

theorem hid_keep_arg5 (V : Valuation τ sig (Elt Ideal)) :
    after (hid (F := Ideal)) V (Proc.devRef .tc main_arg5) = V (Proc.devRef .tc main_arg5) := by
  rw [hid_split, after_append, after_append, hidC_keep_arg5, hidB_keep_arg5, hidA_keep_arg5]

theorem hid_keep_arg6 (V : Valuation τ sig (Elt Ideal)) :
    after (hid (F := Ideal)) V (Proc.devRef .tc main_arg6) = V (Proc.devRef .tc main_arg6) := by
  rw [hid_split, after_append, after_append, hidC_keep_arg6, hidB_keep_arg6, hidA_keep_arg6]

end Cert.ReferenceIdeal.RefHid

end
-- ==== Proof.RefOut.lean ====
/-
  The output layer. The stretch adds the second bias to every row of the aggregated table and takes each row's
  log-softmax the way the called function computes it: the row's maximum (a max-reduce from -inf, followed by one more
  maximum with -inf, which changes nothing), the shift by it, the exponential, the row's sum from 0, the logarithm, and
  the subtraction. At (p, q) the result is (Z(p, q) - M(p)) - log (Σ_k exp (Z(p, k) - M(p))) with Z the biased table and
  M(p) the largest entry of row p, which is the layer `logSoftmaxBias`.

  The whole-array terms the stretch passes through are named below, so that each step's reading closes by unfolding;
  each is then read at an index. The stretch is read in six steps, the row maximum in two (the max-reduce, then the
  extra maximum with -inf).
-/
import proofs.«170672_j5471788335191_1_alg».proof.Proof.RefOps
import proofs.«170672_j5471788335191_1_alg».proof.Proof.Stages
import proofs.«170672_j5471788335191_1_alg».proof.Proof.LibAfter
import proofs.«170672_j5471788335191_1_alg».proof.Proof.LibRowOps
import proofs.«170672_j5471788335191_1_alg».proof.Proof.LibHostRows

noncomputable section

namespace Cert.ReferenceIdeal.RefOut

open Cert.ReferenceIdeal Cert.ReferenceIdeal.RefOps Cert.ReferenceIdeal.Stages Idealize.ShloMosaic Idealize.ShloMosaic.TcCoe
  Idealize.SL.Sem Idealize.ShloMosaic.StableHlo Idealize.ShloMosaic.ValueIdx Cert.RowForms Cert.LibRowOps Cert.LibHostRows

variable [Facts]
open Facts₀ Facts

section Lists
variable {F : FTy → Type} [FloatOps F]

/-- The bias broadcast to the table's shape and added (3 operations). -/
abbrev outA : List (HloOp τ sig (Elt F)) :=
  [ unary main_arg6 main_v64 (broadcastInDim S1x10 ![1] bcast_S10_S1x10_1 : (⟨S10, .f32⟩ : BufTy).Contents (Elt F) → (⟨S1x10, .f32⟩ : BufTy).Contents (Elt F)),
    unary main_v64 main_v65 (broadcastInDim S100000x10 ![0, 1] bcast_S1x10_S100000x10_0_1 : (⟨S1x10, .f32⟩ : BufTy).Contents (Elt F) → (⟨S100000x10, .f32⟩ : BufTy).Contents (Elt F)),
    binary main_v63 main_v65 main_v66 (addf : (⟨S100000x10, .f32⟩ : BufTy).Contents (Elt F) → (⟨S100000x10, .f32⟩ : BufTy).Contents (Elt F) → (⟨S100000x10, .f32⟩ : BufTy).Contents (Elt F)) ]

/-- Every row's maximum by a max-reduce from -inf (2 operations). -/
abbrev outB1 : List (HloOp τ sig (Elt F)) :=
  [ TRef.nullary (TRef.of (T := ⟨S_, .f32⟩) main_call2_cst) (constant S_ .f32 0xFF800000#32),
    TRef.binary (TRef.of (T := ⟨S100000x10, .f32⟩) main_v66) (TRef.of (T := ⟨S_, .f32⟩) main_call2_cst) (TRef.of (T := ⟨S100000, .f32⟩) main_call2_v0) (fun x v => Host.reduce FloatOps.maximumf x v reducesTo_S100000x10_S100000_d1 h_S_) ]

/-- One more maximum with -inf (3 operations). -/
abbrev outB2 : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The shift of every row by its maximum (3 operations). -/
abbrev outC : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x10, .f32⟩) main_call2_v4) (broadcastInDim S100000x10 ![0, 1] bcast_S100000x1_S100000x10_0_1),
    TRef.binary (TRef.of (T := ⟨S100000x10, .f32⟩) main_v66) (TRef.of (T := ⟨S100000x10, .f32⟩) main_call2_v4) (TRef.of (T := ⟨S100000x10, .f32⟩) main_call2_v5) subf ]

/-- The exponential and every row's sum (3 operations). -/
abbrev outD : List (HloOp τ sig (Elt F)) :=
  [ TRef.unary (TRef.of (T := ⟨S100000x10, .f32⟩) main_call2_v5) (TRef.of (T := ⟨S100000x10, .f32⟩) main_call2_v6) Host.exp,
    TRef.nullary (TRef.of (T := ⟨S_, .f32⟩) main_call2_cst_1) (constant S_ .f32 0x00000000#32),
    TRef.binary (TRef.of (T := ⟨S100000x10, .f32⟩) main_call2_v6) (TRef.of (T := ⟨S_, .f32⟩) main_call2_cst_1) (TRef.of (T := ⟨S100000, .f32⟩) main_call2_v7) (fun x v => Host.reduceAdd x v reducesTo_S100000x10_S100000_d1 h_S_) ]

/-- The logarithm of the sums and the final subtraction (4 operations). -/
abbrev outE : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x10, .f32⟩) main_call2_v10) (broadcastInDim S100000x10 ![0, 1] bcast_S100000x1_S100000x10_0_1),
    TRef.binary (TRef.of (T := ⟨S100000x10, .f32⟩) main_call2_v5) (TRef.of (T := ⟨S100000x10, .f32⟩) main_call2_v10) (TRef.of (T := ⟨S100000x10, .f32⟩) main_v67) subf ]

/-- The output layer's stretch is its steps in order. -/
theorem out_split : (out : List (HloOp τ sig (Elt F))) = outA ++ (outB1 ++ (outB2 ++ (outC ++ (outD ++ outE)))) := rfl

end Lists

/-! ## The whole-array terms -/

/-- The table with the bias added to every row. -/
def biased (C : (⟨S100000x10, .f32⟩ : BufTy).Contents (Elt Ideal)) (b2 : (⟨S10, .f32⟩ : BufTy).Contents (Elt Ideal)) : (⟨S100000x10, .f32⟩ : BufTy).Contents (Elt Ideal) :=
  addf (F := Ideal) (φ := .f32) C (broadcastInDim S100000x10 ![0, 1] bcast_S1x10_S100000x10_0_1 (broadcastInDim S1x10 ![1] bcast_S10_S1x10_1 b2))

/-- Every row's maximum by a max-reduce from -inf. -/
def rowRed (Z : (⟨S100000x10, .f32⟩ : BufTy).Contents (Elt Ideal)) : (⟨S100000, .f32⟩ : BufTy).Contents (Elt Ideal) :=
  (Host.reduce FloatOps.maximumf Z (constant (F := Ideal) S_ .f32 0xFF800000#32) reducesTo_S100000x10_S100000_d1 h_S_ : FVec Ideal S100000 .f32)

/-- One more maximum with -inf. -/
def maxBot (R : (⟨S100000, .f32⟩ : BufTy).Contents (Elt Ideal)) : (⟨S100000, .f32⟩ : BufTy).Contents (Elt Ideal) :=
  maximumf (F := Ideal) (φ := .f32) (broadcastInDim S100000 ![] bcast_S_S100000 (constant (F := Ideal) S_ .f32 0xFF800000#32)) R

/-- Every row's maximum, as the called function takes it. -/
def rowMaxes (Z : (⟨S100000x10, .f32⟩ : BufTy).Contents (Elt Ideal)) : (⟨S100000, .f32⟩ : BufTy).Contents (Elt Ideal) := maxBot (rowRed Z)

/-- Every row shifted by the given per-row amount. -/
def shiftBy (Z : (⟨S100000x10, .f32⟩ : BufTy).Contents (Elt Ideal)) (M : (⟨S100000, .f32⟩ : BufTy).Contents (Elt Ideal)) : (⟨S100000x10, .f32⟩ : BufTy).Contents (Elt Ideal) :=
  subf (F := Ideal) (φ := .f32) Z (broadcastInDim S100000x10 ![0, 1] bcast_S100000x1_S100000x10_0_1 (broadcastInDim S100000x1 ![0] bcast_S100000_S100000x1_0 M))

/-- Every row's sum of exponentials. -/
def expSums (S : (⟨S100000x10, .f32⟩ : BufTy).Contents (Elt Ideal)) : (⟨S100000, .f32⟩ : BufTy).Contents (Elt Ideal) :=
  Host.reduceAdd (F := Ideal) (Host.exp (F := Ideal) (φ := .f32) S) (constant (F := Ideal) S_ .f32 0x00000000#32) reducesTo_S100000x10_S100000_d1 h_S_

/-- The shifted rows less the logarithm of the given per-row sums. -/
def lessLog (S : (⟨S100000x10, .f32⟩ : BufTy).Contents (Elt Ideal)) (T : (⟨S100000, .f32⟩ : BufTy).Contents (Elt Ideal)) : (⟨S100000x10, .f32⟩ : BufTy).Contents (Elt Ideal) :=
  subf (F := Ideal) (φ := .f32) S (broadcastInDim S100000x10 ![0, 1] bcast_S100000x1_S100000x10_0_1 (Host.log (F := Ideal) (φ := .f32) (broadcastInDim S100000x1 ![0] bcast_S100000_S100000x1_0 T)))

/-! ## The steps -/

theorem outA_v66 (V : Valuation τ sig (Elt Ideal)) :
    after (outA (F := Ideal)) V (Proc.devRef .tc main_v66) = biased (V (Proc.devRef .tc main_v63)) (V (Proc.devRef .tc main_arg6)) := by
  after_results_simp <;> rfl

theorem outB1_v0 (V : Valuation τ sig (Elt Ideal)) :
    after (outB1 (F := Ideal)) V (Proc.devRef .tc main_call2_v0) = rowRed (V (Proc.devRef .tc main_v66)) := by
  unfold rowRed
  after_results_simp
  simp only [cast_eq] <;> rfl

theorem outB2_v2 (V : Valuation τ sig (Elt Ideal)) :
    after (outB2 (F := Ideal)) V (Proc.devRef .tc main_call2_v2) = maxBot (V (Proc.devRef .tc main_call2_v0)) := by
  after_results_simp <;> rfl

theorem outC_v5 (V : Valuation τ sig (Elt Ideal)) :
    after (outC (F := Ideal)) V (Proc.devRef .tc main_call2_v5) = shiftBy (V (Proc.devRef .tc main_v66)) (V (Proc.devRef .tc main_call2_v2)) := by
  after_results_simp <;> rfl

theorem outD_v7 (V : Valuation τ sig (Elt Ideal)) :
    after (outD (F := Ideal)) V (Proc.devRef .tc main_call2_v7) = expSums (V (Proc.devRef .tc main_call2_v5)) := by
  after_results_simp <;> rfl

theorem outE_v67 (V : Valuation τ sig (Elt Ideal)) :
    after (outE (F := Ideal)) V (Proc.devRef .tc main_v67) = lessLog (V (Proc.devRef .tc main_call2_v5)) (V (Proc.devRef .tc main_call2_v7)) := by
  after_results_simp <;> rfl

theorem outB1_keep_v66 (V : Valuation τ sig (Elt Ideal)) :
    after (outB1 (F := Ideal)) V (Proc.devRef .tc main_v66) = V (Proc.devRef .tc main_v66) := by after_results_simp

theorem outB2_keep_v66 (V : Valuation τ sig (Elt Ideal)) :
    after (outB2 (F := Ideal)) V (Proc.devRef .tc main_v66) = V (Proc.devRef .tc main_v66) := by after_results_simp

theorem outD_keep_call2_v5 (V : Valuation τ sig (Elt Ideal)) :
    after (outD (F := Ideal)) V (Proc.devRef .tc main_call2_v5) = V (Proc.devRef .tc main_call2_v5) := by after_results_simp

theorem outA_keep_arg0 (V : Valuation τ sig (Elt Ideal)) :
    after (outA (F := Ideal)) V (Proc.devRef .tc main_arg0) = V (Proc.devRef .tc main_arg0) := by after_results_simp

theorem outA_keep_arg1 (V : Valuation τ sig (Elt Ideal)) :
    after (outA (F := Ideal)) V (Proc.devRef .tc main_arg1) = V (Proc.devRef .tc main_arg1) := by after_results_simp

theorem outA_keep_arg2 (V : Valuation τ sig (Elt Ideal)) :
    after (outA (F := Ideal)) V (Proc.devRef .tc main_arg2) = V (Proc.devRef .tc main_arg2) := by after_results_simp

theorem outA_keep_arg3 (V : Valuation τ sig (Elt Ideal)) :
    after (outA (F := Ideal)) V (Proc.devRef .tc main_arg3) = V (Proc.devRef .tc main_arg3) := by after_results_simp

theorem outA_keep_arg4 (V : Valuation τ sig (Elt Ideal)) :
    after (outA (F := Ideal)) V (Proc.devRef .tc main_arg4) = V (Proc.devRef .tc main_arg4) := by after_results_simp

theorem outA_keep_arg5 (V : Valuation τ sig (Elt Ideal)) :
    after (outA (F := Ideal)) V (Proc.devRef .tc main_arg5) = V (Proc.devRef .tc main_arg5) := by after_results_simp

theorem outA_keep_arg6 (V : Valuation τ sig (Elt Ideal)) :
    after (outA (F := Ideal)) V (Proc.devRef .tc main_arg6) = V (Proc.devRef .tc main_arg6) := by after_results_simp

theorem outB1_keep_arg0 (V : Valuation τ sig (Elt Ideal)) :
    after (outB1 (F := Ideal)) V (Proc.devRef .tc main_arg0) = V (Proc.devRef .tc main_arg0) := by after_results_simp

theorem outB2_keep_arg0 (V : Valuation τ sig (Elt Ideal)) :
    after (outB2 (F := Ideal)) V (Proc.devRef .tc main_arg0) = V (Proc.devRef .tc main_arg0) := by after_results_simp

theorem outB1_keep_arg1 (V : Valuation τ sig (Elt Ideal)) :
    after (outB1 (F := Ideal)) V (Proc.devRef .tc main_arg1) = V (Proc.devRef .tc main_arg1) := by after_results_simp

theorem outB2_keep_arg1 (V : Valuation τ sig (Elt Ideal)) :
    after (outB2 (F := Ideal)) V (Proc.devRef .tc main_arg1) = V (Proc.devRef .tc main_arg1) := by after_results_simp

theorem outB1_keep_arg2 (V : Valuation τ sig (Elt Ideal)) :
    after (outB1 (F := Ideal)) V (Proc.devRef .tc main_arg2) = V (Proc.devRef .tc main_arg2) := by after_results_simp

theorem outB2_keep_arg2 (V : Valuation τ sig (Elt Ideal)) :
    after (outB2 (F := Ideal)) V (Proc.devRef .tc main_arg2) = V (Proc.devRef .tc main_arg2) := by after_results_simp

theorem outB1_keep_arg3 (V : Valuation τ sig (Elt Ideal)) :
    after (outB1 (F := Ideal)) V (Proc.devRef .tc main_arg3) = V (Proc.devRef .tc main_arg3) := by after_results_simp

theorem outB2_keep_arg3 (V : Valuation τ sig (Elt Ideal)) :
    after (outB2 (F := Ideal)) V (Proc.devRef .tc main_arg3) = V (Proc.devRef .tc main_arg3) := by after_results_simp

theorem outB1_keep_arg4 (V : Valuation τ sig (Elt Ideal)) :
    after (outB1 (F := Ideal)) V (Proc.devRef .tc main_arg4) = V (Proc.devRef .tc main_arg4) := by after_results_simp

theorem outB2_keep_arg4 (V : Valuation τ sig (Elt Ideal)) :
    after (outB2 (F := Ideal)) V (Proc.devRef .tc main_arg4) = V (Proc.devRef .tc main_arg4) := by after_results_simp

theorem outB1_keep_arg5 (V : Valuation τ sig (Elt Ideal)) :
    after (outB1 (F := Ideal)) V (Proc.devRef .tc main_arg5) = V (Proc.devRef .tc main_arg5) := by after_results_simp

theorem outB2_keep_arg5 (V : Valuation τ sig (Elt Ideal)) :
    after (outB2 (F := Ideal)) V (Proc.devRef .tc main_arg5) = V (Proc.devRef .tc main_arg5) := by after_results_simp

theorem outB1_keep_arg6 (V : Valuation τ sig (Elt Ideal)) :
    after (outB1 (F := Ideal)) V (Proc.devRef .tc main_arg6) = V (Proc.devRef .tc main_arg6) := by after_results_simp

theorem outB2_keep_arg6 (V : Valuation τ sig (Elt Ideal)) :
    after (outB2 (F := Ideal)) V (Proc.devRef .tc main_arg6) = V (Proc.devRef .tc main_arg6) := by after_results_simp

theorem outC_keep_arg0 (V : Valuation τ sig (Elt Ideal)) :
    after (outC (F := Ideal)) V (Proc.devRef .tc main_arg0) = V (Proc.devRef .tc main_arg0) := by after_results_simp

theorem outC_keep_arg1 (V : Valuation τ sig (Elt Ideal)) :
    after (outC (F := Ideal)) V (Proc.devRef .tc main_arg1) = V (Proc.devRef .tc main_arg1) := by after_results_simp

theorem outC_keep_arg2 (V : Valuation τ sig (Elt Ideal)) :
    after (outC (F := Ideal)) V (Proc.devRef .tc main_arg2) = V (Proc.devRef .tc main_arg2) := by after_results_simp

theorem outC_keep_arg3 (V : Valuation τ sig (Elt Ideal)) :
    after (outC (F := Ideal)) V (Proc.devRef .tc main_arg3) = V (Proc.devRef .tc main_arg3) := by after_results_simp

theorem outC_keep_arg4 (V : Valuation τ sig (Elt Ideal)) :
    after (outC (F := Ideal)) V (Proc.devRef .tc main_arg4) = V (Proc.devRef .tc main_arg4) := by after_results_simp

theorem outC_keep_arg5 (V : Valuation τ sig (Elt Ideal)) :
    after (outC (F := Ideal)) V (Proc.devRef .tc main_arg5) = V (Proc.devRef .tc main_arg5) := by after_results_simp

theorem outC_keep_arg6 (V : Valuation τ sig (Elt Ideal)) :
    after (outC (F := Ideal)) V (Proc.devRef .tc main_arg6) = V (Proc.devRef .tc main_arg6) := by after_results_simp

theorem outD_keep_arg0 (V : Valuation τ sig (Elt Ideal)) :
    after (outD (F := Ideal)) V (Proc.devRef .tc main_arg0) = V (Proc.devRef .tc main_arg0) := by after_results_simp

theorem outD_keep_arg1 (V : Valuation τ sig (Elt Ideal)) :
    after (outD (F := Ideal)) V (Proc.devRef .tc main_arg1) = V (Proc.devRef .tc main_arg1) := by after_results_simp

theorem outD_keep_arg2 (V : Valuation τ sig (Elt Ideal)) :
    after (outD (F := Ideal)) V (Proc.devRef .tc main_arg2) = V (Proc.devRef .tc main_arg2) := by after_results_simp

theorem outD_keep_arg3 (V : Valuation τ sig (Elt Ideal)) :
    after (outD (F := Ideal)) V (Proc.devRef .tc main_arg3) = V (Proc.devRef .tc main_arg3) := by after_results_simp

theorem outD_keep_arg4 (V : Valuation τ sig (Elt Ideal)) :
    after (outD (F := Ideal)) V (Proc.devRef .tc main_arg4) = V (Proc.devRef .tc main_arg4) := by after_results_simp

theorem outD_keep_arg5 (V : Valuation τ sig (Elt Ideal)) :
    after (outD (F := Ideal)) V (Proc.devRef .tc main_arg5) = V (Proc.devRef .tc main_arg5) := by after_results_simp

theorem outD_keep_arg6 (V : Valuation τ sig (Elt Ideal)) :
    after (outD (F := Ideal)) V (Proc.devRef .tc main_arg6) = V (Proc.devRef .tc main_arg6) := by after_results_simp

theorem outE_keep_arg0 (V : Valuation τ sig (Elt Ideal)) :
    after (outE (F := Ideal)) V (Proc.devRef .tc main_arg0) = V (Proc.devRef .tc main_arg0) := by after_results_simp

theorem outE_keep_arg1 (V : Valuation τ sig (Elt Ideal)) :
    after (outE (F := Ideal)) V (Proc.devRef .tc main_arg1) = V (Proc.devRef .tc main_arg1) := by after_results_simp

theorem outE_keep_arg2 (V : Valuation τ sig (Elt Ideal)) :
    after (outE (F := Ideal)) V (Proc.devRef .tc main_arg2) = V (Proc.devRef .tc main_arg2) := by after_results_simp

theorem outE_keep_arg3 (V : Valuation τ sig (Elt Ideal)) :
    after (outE (F := Ideal)) V (Proc.devRef .tc main_arg3) = V (Proc.devRef .tc main_arg3) := by after_results_simp

theorem outE_keep_arg4 (V : Valuation τ sig (Elt Ideal)) :
    after (outE (F := Ideal)) V (Proc.devRef .tc main_arg4) = V (Proc.devRef .tc main_arg4) := by after_results_simp

theorem outE_keep_arg5 (V : Valuation τ sig (Elt Ideal)) :
    after (outE (F := Ideal)) V (Proc.devRef .tc main_arg5) = V (Proc.devRef .tc main_arg5) := by after_results_simp

theorem outE_keep_arg6 (V : Valuation τ sig (Elt Ideal)) :
    after (outE (F := Ideal)) V (Proc.devRef .tc main_arg6) = V (Proc.devRef .tc main_arg6) := by after_results_simp

/-! ## The terms read at an index -/

theorem biased_apply (C : (⟨S100000x10, .f32⟩ : BufTy).Contents (Elt Ideal)) (b2 : (⟨S10, .f32⟩ : BufTy).Contents (Elt Ideal)) (p : Fin 100000) (k : Fin 10) :
    biased C b2 (ix2 p k) = C (ix2 p k) + rowOf b2 (ix2 (0 : Fin 1) k) := by
  unfold biased
  rw [addf_apply, broadcastInDim_1b_ab_apply, broadcastInDim_b_1b_apply]
  rfl

theorem rowMaxes_apply (Z : (⟨S100000x10, .f32⟩ : BufTy).Contents (Elt Ideal)) (p : Fin 100000) : rowMaxes Z (ix1 p) = rowMax fun k : Fin 10 => Z (ix2 p k) := by
  unfold rowMaxes maxBot rowRed
  rw [maximumf_apply, broadcastInDim_scalar_apply, constant_apply, ofBits_neg_inf, max_bot_left,
    hostReduce_maximumf_row_apply Z _ reducesTo_S100000x10_S100000_d1 (by decide) h_S_ p, constant_apply, ofBits_neg_inf]
  rfl

theorem shiftBy_apply (Z : (⟨S100000x10, .f32⟩ : BufTy).Contents (Elt Ideal)) (M : (⟨S100000, .f32⟩ : BufTy).Contents (Elt Ideal)) (p : Fin 100000) (k : Fin 10) :
    shiftBy Z M (ix2 p k) = Z (ix2 p k) - M (ix1 p) := by
  unfold shiftBy
  rw [subf_apply, broadcastInDim_a1_ab_apply, broadcastInDim_a_a1_apply]

theorem expSums_apply (S : (⟨S100000x10, .f32⟩ : BufTy).Contents (Elt Ideal)) (p : Fin 100000) : expSums S (ix1 p) = ∑ k : Fin 10, Ideal.exp (S (ix2 p k)) := by
  unfold expSums Host.reduceAdd
  rw [Ideal.hostReduceAdd_def, hostReduceAdd_row_apply reducesTo_S100000x10_S100000_d1 (by decide) _ _ p, constant_apply,
    Ideal.ofBits_zero_f32, zero_add]
  rfl

theorem lessLog_apply (S : (⟨S100000x10, .f32⟩ : BufTy).Contents (Elt Ideal)) (T : (⟨S100000, .f32⟩ : BufTy).Contents (Elt Ideal)) (p : Fin 100000) (q : Fin 10) :
    lessLog S T (ix2 p q) = S (ix2 p q) - Ideal.log (T (ix1 p)) := by
  unfold lessLog
  rw [subf_apply, broadcastInDim_a1_ab_apply]
  show S (ix2 p q) - Ideal.log ((broadcastInDim S100000x1 ![0] bcast_S100000_S100000x1_0 T) (ix2 p (0 : Fin 1))) = _
  rw [broadcastInDim_a_a1_apply]

/-- The steps composed are the output layer. -/
theorem out_eq (C : (⟨S100000x10, .f32⟩ : BufTy).Contents (Elt Ideal)) (b2 : (⟨S10, .f32⟩ : BufTy).Contents (Elt Ideal)) :
    lessLog (shiftBy (biased C b2) (rowMaxes (biased C b2))) (expSums (shiftBy (biased C b2) (rowMaxes (biased C b2))))
      = Cert.Layers.logSoftmaxBias C (rowOf b2) := by
  funext j
  obtain ⟨p, q, rfl⟩ : ∃ p q, j = ix2 p q := ⟨j 0, j 1, eq_ix2 j⟩
  rw [lessLog_apply, expSums_apply, shiftBy_apply, rowMaxes_apply]
  simp only [shiftBy_apply, rowMaxes_apply, biased_apply]
  rfl

/-! ## The stretch -/

/-- After the output layer's stretch the buffer of %67 holds the log-softmax of the biased rows. -/
theorem out_v67 (V : Valuation τ sig (Elt Ideal)) :
    after (out (F := Ideal)) V (Proc.devRef .tc main_v67)
      = Cert.Layers.logSoftmaxBias (V (Proc.devRef .tc main_v63)) (rowOf (V (Proc.devRef .tc main_arg6))) := by
  rw [out_split, after_append, after_append, after_append, after_append, after_append, outE_v67, outD_keep_call2_v5, outD_v7,
    outC_v5, outB2_keep_v66, outB2_v2, outB1_keep_v66, outB1_v0, outA_v66]
  exact out_eq _ _

theorem out_keep_arg0 (V : Valuation τ sig (Elt Ideal)) :
    after (out (F := Ideal)) V (Proc.devRef .tc main_arg0) = V (Proc.devRef .tc main_arg0) := by
  rw [out_split, after_append, after_append, after_append, after_append, after_append, outE_keep_arg0, outD_keep_arg0,
    outC_keep_arg0, outB2_keep_arg0, outB1_keep_arg0, outA_keep_arg0]

theorem out_keep_arg1 (V : Valuation τ sig (Elt Ideal)) :
    after (out (F := Ideal)) V (Proc.devRef .tc main_arg1) = V (Proc.devRef .tc main_arg1) := by
  rw [out_split, after_append, after_append, after_append, after_append, after_append, outE_keep_arg1, outD_keep_arg1,
    outC_keep_arg1, outB2_keep_arg1, outB1_keep_arg1, outA_keep_arg1]

theorem out_keep_arg2 (V : Valuation τ sig (Elt Ideal)) :
    after (out (F := Ideal)) V (Proc.devRef .tc main_arg2) = V (Proc.devRef .tc main_arg2) := by
  rw [out_split, after_append, after_append, after_append, after_append, after_append, outE_keep_arg2, outD_keep_arg2,
    outC_keep_arg2, outB2_keep_arg2, outB1_keep_arg2, outA_keep_arg2]

theorem out_keep_arg3 (V : Valuation τ sig (Elt Ideal)) :
    after (out (F := Ideal)) V (Proc.devRef .tc main_arg3) = V (Proc.devRef .tc main_arg3) := by
  rw [out_split, after_append, after_append, after_append, after_append, after_append, outE_keep_arg3, outD_keep_arg3,
    outC_keep_arg3, outB2_keep_arg3, outB1_keep_arg3, outA_keep_arg3]

theorem out_keep_arg4 (V : Valuation τ sig (Elt Ideal)) :
    after (out (F := Ideal)) V (Proc.devRef .tc main_arg4) = V (Proc.devRef .tc main_arg4) := by
  rw [out_split, after_append, after_append, after_append, after_append, after_append, outE_keep_arg4, outD_keep_arg4,
    outC_keep_arg4, outB2_keep_arg4, outB1_keep_arg4, outA_keep_arg4]

theorem out_keep_arg5 (V : Valuation τ sig (Elt Ideal)) :
    after (out (F := Ideal)) V (Proc.devRef .tc main_arg5) = V (Proc.devRef .tc main_arg5) := by
  rw [out_split, after_append, after_append, after_append, after_append, after_append, outE_keep_arg5, outD_keep_arg5,
    outC_keep_arg5, outB2_keep_arg5, outB1_keep_arg5, outA_keep_arg5]

theorem out_keep_arg6 (V : Valuation τ sig (Elt Ideal)) :
    after (out (F := Ideal)) V (Proc.devRef .tc main_arg6) = V (Proc.devRef .tc main_arg6) := by
  rw [out_split, after_append, after_append, after_append, after_append, after_append, outE_keep_arg6, outD_keep_arg6,
    outC_keep_arg6, outB2_keep_arg6, outB1_keep_arg6, outA_keep_arg6]

end Cert.ReferenceIdeal.RefOut

end
-- ==== Proof.RefRun.lean ====
/-
  The reference program's run. Every weakly fair execution of the program terminates, without a fault, with the result
  buffer holding the network `refResult` of the seven arguments' launch contents and the argument buffers unchanged.

  The straight-line run theorem leaves every buffer at the fold of the 100 operations over the launch contents. The fold
  over the six stretches in order is the composition of the six folds; reading the result buffer back through them, each
  stretch's result is the stage function of what the earlier stretches left — edge preparation, the first linear layer,
  message passing, the hidden layer, message passing, the output layer — and the composition of the stage functions is
  `refResult` by definition. No stretch writes an argument buffer.
-/
import proofs.«170672_j5471788335191_1_alg».proof.Proof.RefOps
import proofs.«170672_j5471788335191_1_alg».proof.Proof.RefPre
import proofs.«170672_j5471788335191_1_alg».proof.Proof.RefDot1
import proofs.«170672_j5471788335191_1_alg».proof.Proof.RefMp
import proofs.«170672_j5471788335191_1_alg».proof.Proof.RefHid
import proofs.«170672_j5471788335191_1_alg».proof.Proof.RefOut
import proofs.«170672_j5471788335191_1_alg».proof.Proof.Stages
import proofs.«170672_j5471788335191_1_alg».proof.Proof.LibAfter

noncomputable section

namespace Cert.ReferenceIdeal.RefRun

open Cert.ReferenceIdeal Cert.ReferenceIdeal.RefOps Cert.ReferenceIdeal.Stages Idealize.ShloMosaic Idealize.ShloMosaic.TcCoe
  Idealize.SL.Sem Idealize.ShloMosaic.StableHlo
open Cert.ReferenceIdeal.RefPre Cert.ReferenceIdeal.RefDot1 Cert.ReferenceIdeal.RefMp Cert.ReferenceIdeal.RefHid
  Cert.ReferenceIdeal.RefOut

variable [Cert.ReferenceIdeal.Facts]

/-- After all the operations the result buffer holds the network of the arguments' contents. -/
theorem ops_v67 (V : Valuation τ sig (Elt Ideal)) :
    after (ops (F := Ideal)) V (Proc.devRef .tc main_v67)
      = refResult (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_append, after_append, after_append, after_append, after_append]
  rw [out_v67, mp2_v63, mp2_keep_arg6]
  rw [hid_v50, hid_keep_v3, hid_keep_v6, hid_keep_v31, hid_keep_arg6]
  rw [mp1_v45, mp1_keep_v3, mp1_keep_v6, mp1_keep_v31, mp1_keep_arg4, mp1_keep_arg5, mp1_keep_arg6]
  rw [dot1_v32, dot1_keep_v3, dot1_keep_v6, dot1_keep_v31, dot1_keep_arg4, dot1_keep_arg5, dot1_keep_arg6]
  rw [pre_v3, pre_v6, pre_v31, pre_keep_arg0, pre_keep_arg3, pre_keep_arg4, pre_keep_arg5, pre_keep_arg6]
  rfl

/-- No operation writes the buffer of %arg0. -/
theorem ops_keep_arg0 (V : Valuation τ sig (Elt Ideal)) :
    after (ops (F := Ideal)) V (Proc.devRef .tc main_arg0) = V (Proc.devRef .tc main_arg0) := by
  rw [after_append, after_append, after_append, after_append, after_append, out_keep_arg0, mp2_keep_arg0, hid_keep_arg0,
    mp1_keep_arg0, dot1_keep_arg0, pre_keep_arg0]

/-- No operation writes the buffer of %arg1. -/
theorem ops_keep_arg1 (V : Valuation τ sig (Elt Ideal)) :
    after (ops (F := Ideal)) V (Proc.devRef .tc main_arg1) = V (Proc.devRef .tc main_arg1) := by
  rw [after_append, after_append, after_append, after_append, after_append, out_keep_arg1, mp2_keep_arg1, hid_keep_arg1,
    mp1_keep_arg1, dot1_keep_arg1, pre_keep_arg1]

/-- No operation writes the buffer of %arg2. -/
theorem ops_keep_arg2 (V : Valuation τ sig (Elt Ideal)) :
    after (ops (F := Ideal)) V (Proc.devRef .tc main_arg2) = V (Proc.devRef .tc main_arg2) := by
  rw [after_append, after_append, after_append, after_append, after_append, out_keep_arg2, mp2_keep_arg2, hid_keep_arg2,
    mp1_keep_arg2, dot1_keep_arg2, pre_keep_arg2]

/-- No operation writes the buffer of %arg3. -/
theorem ops_keep_arg3 (V : Valuation τ sig (Elt Ideal)) :
    after (ops (F := Ideal)) V (Proc.devRef .tc main_arg3) = V (Proc.devRef .tc main_arg3) := by
  rw [after_append, after_append, after_append, after_append, after_append, out_keep_arg3, mp2_keep_arg3, hid_keep_arg3,
    mp1_keep_arg3, dot1_keep_arg3, pre_keep_arg3]

/-- No operation writes the buffer of %arg4. -/
theorem ops_keep_arg4 (V : Valuation τ sig (Elt Ideal)) :
    after (ops (F := Ideal)) V (Proc.devRef .tc main_arg4) = V (Proc.devRef .tc main_arg4) := by
  rw [after_append, after_append, after_append, after_append, after_append, out_keep_arg4, mp2_keep_arg4, hid_keep_arg4,
    mp1_keep_arg4, dot1_keep_arg4, pre_keep_arg4]

/-- No operation writes the buffer of %arg5. -/
theorem ops_keep_arg5 (V : Valuation τ sig (Elt Ideal)) :
    after (ops (F := Ideal)) V (Proc.devRef .tc main_arg5) = V (Proc.devRef .tc main_arg5) := by
  rw [after_append, after_append, after_append, after_append, after_append, out_keep_arg5, mp2_keep_arg5, hid_keep_arg5,
    mp1_keep_arg5, dot1_keep_arg5, pre_keep_arg5]

/-- No operation writes the buffer of %arg6. -/
theorem ops_keep_arg6 (V : Valuation τ sig (Elt Ideal)) :
    after (ops (F := Ideal)) V (Proc.devRef .tc main_arg6) = V (Proc.devRef .tc main_arg6) := by
  rw [after_append, after_append, after_append, after_append, after_append, out_keep_arg6, mp2_keep_arg6, hid_keep_arg6,
    mp1_keep_arg6, dot1_keep_arg6, pre_keep_arg6]

/-- On every device, from any memory with zero counters: every weakly fair execution of the program terminates with the
    result buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67)
          = Cert.ReferenceIdeal.Stages.refResult (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c main_v67).trans (ops_v67 (launchContents m c)),
      (h c main_arg0).trans (ops_keep_arg0 (launchContents m c)),
      (h c main_arg1).trans (ops_keep_arg1 (launchContents m c)),
      (h c main_arg2).trans (ops_keep_arg2 (launchContents m c)),
      (h c main_arg3).trans (ops_keep_arg3 (launchContents m c)),
      (h c main_arg4).trans (ops_keep_arg4 (launchContents m c)),
      (h c main_arg5).trans (ops_keep_arg5 (launchContents m c)),
      (h c main_arg6).trans (ops_keep_arg6 (launchContents m c))⟩)
    (run_seq scopedRefs_eq scopedSems_eq defs main (fun _ => ops) main_eq (fun _ => ops_sub) m ρ (fun _ => ops_fresh))

end Cert.ReferenceIdeal.RefRun

end
-- ==== Proof.lean ====
/-
  A two-layer graph convolutional network: its Pallas implementation against its jnp reference, over the extended reals.

  Both programs prepare the edges the same way (self-loops appended, weighted in-degrees, the symmetric normalisation
  d^(-1/2)[src] · w · d^(-1/2)[dst]) and pass messages the same way (gather the source rows of a node table, scale by the
  edge's coefficient, scatter-add at the targets): those host operations are the same in both, on the same operands. They
  differ in the three dense stages. The kernel computes x·W1 in ten row blocks of 10000 nodes, relu(c1 + b1)·W2 in ten row
  blocks, and log_softmax(c2 + b2) in ten row blocks; the reference computes each on the whole array. At the ideal values
  a row block of a matrix product is the matching rows of the whole product (entry (p, n) is Σ_k A(p, k)·B(k, n) either
  way), the bias, the clamp at zero and the row-wise log-softmax act on each row by itself, a narrowing to bf16 is the
  identity, a lane reduction and a host reduction of a row are the same sum or maximum, the reference's extra maximum with
  -inf changes nothing, and its sum's initial 0 adds nothing. So both results are one function, `Stages.refResult`, of
  the seven arguments, with no appeal to finiteness: `algebraic`. The idealization rewrote nothing, so `preserves` is
  trivial; the kernels' frames are the generated ones and the reference's frame is its run with the result dropped.
-/
import proofs.«170672_j5471788335191_1_alg».proof.Defs
import proofs.«170672_j5471788335191_1_alg».proof.Proof.Gen.Kernel
import proofs.«170672_j5471788335191_1_alg».proof.Proof.Gen.Kernel.Frame
import proofs.«170672_j5471788335191_1_alg».proof.Proof.Gen.KernelIdeal
import proofs.«170672_j5471788335191_1_alg».proof.Proof.Gen.KernelIdeal.Frame
import proofs.«170672_j5471788335191_1_alg».proof.Proof.Gen.ReferenceIdeal
import proofs.«170672_j5471788335191_1_alg».proof.Proof.Gen.Pre_finite_inputs
import proofs.«170672_j5471788335191_1_alg».proof.Proof.KValue
import proofs.«170672_j5471788335191_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
